-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v169) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S50000x128 .f32) (main_arg3 : IVec S2x800000 32) (main_arg4 : FVec F S128x256 .f32) (main_arg5 : FVec F S256 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S10000x128 : Shape := ⟨2, ![10000, 128]⟩
abbrev S10000x256 : Shape := ⟨2, ![10000, 256]⟩
abbrev S1x128 : Shape := ⟨2, ![1, 128]⟩

abbrev nBuf : Space → Nat
  | .hbm => 220
  | .vmem => 22
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S2x800000, .i32⟩
  | 4 => ⟨S128x256, .f32⟩
  | 5 => ⟨S256, .f32⟩
  | 6 => ⟨S256x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000, .f32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S800000x1, .f32⟩
  | 51 => ⟨S800000x128, .f32⟩
  | 52 => ⟨S800000x128, .f32⟩
  | 53 => ⟨S_, .f32⟩
  | 54 => ⟨S50000x128, .f32⟩
  | 55 => ⟨S800000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x256, .f32⟩
  | 63 => ⟨S50000x256, .f32⟩
  | 64 => ⟨S_, .f32⟩
  | 65 => ⟨S50000x256, .f32⟩
  | 66 => ⟨S50000x256, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000, .f32⟩
  | 86 => ⟨S800000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S800000x1, .f32⟩
  | 97 => ⟨S800000x128, .f32⟩
  | 98 => ⟨S800000x128, .f32⟩
  | 99 => ⟨S_, .f32⟩
  | 100 => ⟨S50000x128, .f32⟩
  | 101 => ⟨S800000x1, .i32⟩
  | 102 => ⟨S50000x128, .f32⟩
  | 103 => ⟨S50000, .f32⟩
  | 104 => ⟨S50000x1, .f32⟩
  | 105 => ⟨S50000x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S1x800000, .i32⟩
  | 115 => ⟨S800000, .i32⟩
  | 116 => ⟨S1x800000, .i32⟩
  | 117 => ⟨S800000, .i32⟩
  | 118 => ⟨S_, .f32⟩
  | 119 => ⟨S800000, .f32⟩
  | 120 => ⟨S_, .f32⟩
  | 121 => ⟨S50000, .f32⟩
  | 122 => ⟨S800000x1, .i32⟩
  | 123 => ⟨S50000, .f32⟩
  | 124 => ⟨S_, .f32⟩
  | 125 => ⟨S50000, .f32⟩
  | 126 => ⟨S50000, .f32⟩
  | 127 => ⟨S50000, .f32⟩
  | _ => ⟨S50000x128, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S800000x1, .f32⟩
  | 29 => ⟨S800000x128, .f32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000, .f32⟩
  | 36 => ⟨S50000x1, .f32⟩
  | 37 => ⟨S50000x128, .f32⟩
  | 38 => ⟨S50000x128, .f32⟩
  | 39 => ⟨S50000x128, .f32⟩
  | 40 => ⟨S1x256, .f32⟩
  | 41 => ⟨S50000x256, .f32⟩
  | 42 => ⟨S_, .f32⟩
  | 43 => ⟨S50000x256, .f32⟩
  | 44 => ⟨S50000x256, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000, .f32⟩
  | 64 => ⟨S800000, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S800000x1, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S50000, .f32⟩
  | 82 => ⟨S50000x1, .f32⟩
  | 83 => ⟨S50000x128, .f32⟩
  | 84 => ⟨S50000x128, .f32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S50000x128, .f32⟩
  | 91 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x256, .f32⟩
  | .local _ .vmem, ⟨3, _⟩ => ⟨S1x256, .f32⟩
  | .local _ .vmem, ⟨4, _⟩ => ⟨S10000x256, .f32⟩
  | .local _ .vmem, ⟨5, _⟩ => ⟨S10000x256, .f32⟩
  | .local _ .vmem, ⟨6, _⟩ => ⟨S10000x256, .f32⟩
  | .local _ .vmem, ⟨7, _⟩ => ⟨S10000x256, .f32⟩
  | .local _ .vmem, ⟨8, _⟩ => ⟨S256x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x256, .f32⟩
  | .local _ .vmem, ⟨14, _⟩ => ⟨S1x256, .f32⟩
  | .local _ .vmem, ⟨15, _⟩ => ⟨S10000x256, .f32⟩
  | .local _ .vmem, ⟨16, _⟩ => ⟨S10000x256, .f32⟩
  | .local _ .vmem, ⟨17, _⟩ => ⟨S10000x256, .f32⟩
  | .local _ .vmem, ⟨18, _⟩ => ⟨S10000x256, .f32⟩
  | .local _ .vmem, ⟨19, _⟩ => ⟨S256x128, .f32⟩
  | .local _ .vmem, ⟨20, _⟩ => ⟨S10000x128, .f32⟩
  | .local _ .vmem, ⟨21, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call1_cst : Ref sig .tc := ⟨.hbm, 111, rfl⟩
abbrev main_call1_v0 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_15 : Ref sig .tc := ⟨.hbm, 118, rfl⟩
abbrev main_v89 : Ref sig .tc := ⟨.hbm, 119, rfl⟩
abbrev main_cst_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_17 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_18 : Ref sig .tc := ⟨.hbm, 128, rfl⟩
abbrev main_v96 : Ref sig .tc := ⟨.hbm, 129, rfl⟩
abbrev main_v97 : Ref sig .tc := ⟨.hbm, 130, rfl⟩
abbrev main_c_19 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_20 : Ref sig .tc := ⟨.hbm, 137, rfl⟩
abbrev main_v103 : Ref sig .tc := ⟨.hbm, 138, rfl⟩
abbrev main_v104 : Ref sig .tc := ⟨.hbm, 139, rfl⟩
abbrev main_c_21 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_22 : Ref sig .tc := ⟨.hbm, 147, rfl⟩
abbrev main_v111 : Ref sig .tc := ⟨.hbm, 148, rfl⟩
abbrev main_v112 : Ref sig .tc := ⟨.hbm, 149, rfl⟩
abbrev main_c_23 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_24 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_call2_cst : Ref sig .tc := ⟨.hbm, 170, rfl⟩
abbrev main_call2_v0 : Ref sig .tc := ⟨.hbm, 171, rfl⟩
abbrev main_v131 : Ref sig .tc := ⟨.hbm, 172, rfl⟩
abbrev main_v132 : Ref sig .tc := ⟨.hbm, 173, rfl⟩
abbrev main_c_25 : Ref sig .tc := ⟨.hbm, 174, rfl⟩
abbrev main_v133 : Ref sig .tc := ⟨.hbm, 175, rfl⟩
abbrev main_v134 : Ref sig .tc := ⟨.hbm, 176, rfl⟩
abbrev main_c_26 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_c_27 : Ref sig .tc := ⟨.hbm, 183, rfl⟩
abbrev main_v140 : Ref sig .tc := ⟨.hbm, 184, rfl⟩
abbrev main_v141 : Ref sig .tc := ⟨.hbm, 185, rfl⟩
abbrev main_c_28 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_c_29 : Ref sig .tc := ⟨.hbm, 193, rfl⟩
abbrev main_v148 : Ref sig .tc := ⟨.hbm, 194, rfl⟩
abbrev main_v149 : Ref sig .tc := ⟨.hbm, 195, rfl⟩
abbrev main_c_30 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_cst_31 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_call3_cst : Ref sig .tc := ⟨.hbm, 217, rfl⟩
abbrev main_call3_v0 : Ref sig .tc := ⟨.hbm, 218, rfl⟩
abbrev main_v169 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  bcast_S_S50000x256 : S_.BroadcastsInDim S50000x256 (![] : Fin 0 → Fin S50000x256.rank)
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x256_S10000x256_1_0_0_1_n_n_wf : DotDims.WF S10000x128 S128x256 S10000x256 [1] [0] [0] [1] [] []
  dot_S10000x256_S256x128_S10000x128_1_0_0_1_n_n_wf : DotDims.WF S10000x256 S256x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x256.size a ≤ S50000x256.size a
  hwx0_3 : ∀ i : grid0.Coords, EltTy.bits .f32 = 32 ∨ (Rect.block (s := S50000x256) S10000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S50000x256.size a
  hwx1_0 : ∀ i : grid1.Coords, EltTy.bits .f32 = 32 ∨ (Rect.block (s := S50000x256) S10000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x256.size a ≤ S50000x256.size a
  hwx2_3 : ∀ i : grid2.Coords, EltTy.bits .f32 = 32 ∨ (Rect.block (s := S50000x256) S10000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S50000x256.size a
  hwx3_0 : ∀ i : grid3.Coords, EltTy.bits .f32 = 32 ∨ (Rect.block (s := S50000x256) S10000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

abbrev win0_0 : Pipeline.Window sig grid0 :=
  Pipeline.Window.ofSpec (Memref.whole main_v43) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S10000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v128) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v129) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v130) S10000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v131) S10000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v132) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩
abbrev S800000x128 : Shape := ⟨2, ![800000, 128]⟩
abbrev S1x128 : Shape := ⟨2, ![1, 128]⟩

abbrev nBuf : Space → Nat
  | .hbm => 244
  | .vmem => 0
  | .smem => 0
  | _ => 0

abbrev hbmTy0_0 (i : Nat) : BufTy := match i % 128 with
  | 0 => ⟨S50000x128, .f32⟩
  | 1 => ⟨S2x800000, .i32⟩
  | 2 => ⟨S50000x128, .f32⟩
  | 3 => ⟨S2x800000, .i32⟩
  | 4 => ⟨S128x256, .f32⟩
  | 5 => ⟨S256, .f32⟩
  | 6 => ⟨S256x128, .f32⟩
  | 7 => ⟨S128, .f32⟩
  | 8 => ⟨S1x800000, .i32⟩
  | 9 => ⟨S800000, .i32⟩
  | 10 => ⟨S1x800000, .i32⟩
  | 11 => ⟨S800000, .i32⟩
  | 12 => ⟨S50000x256, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x256, .f32⟩
  | 51 => ⟨S800000x1, .f32⟩
  | 52 => ⟨S800000x256, .f32⟩
  | 53 => ⟨S800000x256, .f32⟩
  | 54 => ⟨S_, .f32⟩
  | 55 => ⟨S50000x256, .f32⟩
  | 56 => ⟨S800000x1, .i32⟩
  | 57 => ⟨S50000x256, .f32⟩
  | 58 => ⟨S50000, .f32⟩
  | 59 => ⟨S50000x1, .f32⟩
  | 60 => ⟨S50000x256, .f32⟩
  | 61 => ⟨S50000x256, .f32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x128, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S800000x1, .f32⟩
  | 109 => ⟨S800000x128, .f32⟩
  | 110 => ⟨S800000x128, .f32⟩
  | 111 => ⟨S_, .f32⟩
  | 112 => ⟨S50000x128, .f32⟩
  | 113 => ⟨S800000x1, .i32⟩
  | 114 => ⟨S50000x128, .f32⟩
  | 115 => ⟨S50000, .f32⟩
  | 116 => ⟨S50000x1, .f32⟩
  | 117 => ⟨S50000x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S1x800000, .i32⟩
  | 127 => ⟨S800000, .i32⟩
  | _ => ⟨S50000x128, .f32⟩

abbrev hbmTy0_1 (i : Nat) : BufTy := match i % 128 with
  | 0 => ⟨S1x800000, .i32⟩
  | 1 => ⟨S800000, .i32⟩
  | 2 => ⟨S50000x256, .f32⟩
  | 3 => ⟨S_, .f32⟩
  | 4 => ⟨S800000, .f32⟩
  | 5 => ⟨S_, .f32⟩
  | 6 => ⟨S50000, .f32⟩
  | 7 => ⟨S800000x1, .i32⟩
  | 8 => ⟨S50000, .f32⟩
  | 9 => ⟨S_, .f32⟩
  | 10 => ⟨S50000, .f32⟩
  | 11 => ⟨S50000, .f32⟩
  | 12 => ⟨S50000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000, .f32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x256, .f32⟩
  | 41 => ⟨S800000x1, .f32⟩
  | 42 => ⟨S800000x256, .f32⟩
  | 43 => ⟨S800000x256, .f32⟩
  | 44 => ⟨S_, .f32⟩
  | 45 => ⟨S50000x256, .f32⟩
  | 46 => ⟨S800000x1, .i32⟩
  | 47 => ⟨S50000x256, .f32⟩
  | 48 => ⟨S50000, .f32⟩
  | 49 => ⟨S50000x1, .f32⟩
  | 50 => ⟨S50000x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S50000x128, .f32⟩
  | 60 => ⟨S_, .f32⟩
  | 61 => ⟨S800000, .f32⟩
  | 62 => ⟨S_, .f32⟩
  | 63 => ⟨S50000, .f32⟩
  | 64 => ⟨S800000x1, .i32⟩
  | 65 => ⟨S50000, .f32⟩
  | 66 => ⟨S_, .f32⟩
  | 67 => ⟨S50000, .f32⟩
  | 68 => ⟨S50000, .f32⟩
  | 69 => ⟨S50000, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S800000x1, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S50000, .f32⟩
  | 106 => ⟨S50000x1, .f32⟩
  | 107 => ⟨S50000x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_18 : Ref sig .tc := ⟨.hbm, 131, rfl⟩
abbrev main_v99 : Ref sig .tc := ⟨.hbm, 132, rfl⟩
abbrev main_cst_19 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_20 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_21 : Ref sig .tc := ⟨.hbm, 141, rfl⟩
abbrev main_v106 : Ref sig .tc := ⟨.hbm, 142, rfl⟩
abbrev main_v107 : Ref sig .tc := ⟨.hbm, 143, rfl⟩
abbrev main_c_22 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_c_23 : Ref sig .tc := ⟨.hbm, 150, rfl⟩
abbrev main_v113 : Ref sig .tc := ⟨.hbm, 151, rfl⟩
abbrev main_v114 : Ref sig .tc := ⟨.hbm, 152, rfl⟩
abbrev main_c_24 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_c_25 : Ref sig .tc := ⟨.hbm, 160, rfl⟩
abbrev main_v121 : Ref sig .tc := ⟨.hbm, 161, rfl⟩
abbrev main_v122 : Ref sig .tc := ⟨.hbm, 162, rfl⟩
abbrev main_c_26 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_27 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_call2_cst : Ref sig .tc := ⟨.hbm, 184, rfl⟩
abbrev main_call2_v0 : Ref sig .tc := ⟨.hbm, 185, rfl⟩
abbrev main_v142 : Ref sig .tc := ⟨.hbm, 186, rfl⟩
abbrev main_v143 : Ref sig .tc := ⟨.hbm, 187, rfl⟩
abbrev main_cst_28 : Ref sig .tc := ⟨.hbm, 188, rfl⟩
abbrev main_v144 : Ref sig .tc := ⟨.hbm, 189, rfl⟩
abbrev main_cst_29 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_30 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_c_31 : Ref sig .tc := ⟨.hbm, 198, rfl⟩
abbrev main_v151 : Ref sig .tc := ⟨.hbm, 199, rfl⟩
abbrev main_v152 : Ref sig .tc := ⟨.hbm, 200, rfl⟩
abbrev main_c_32 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_33 : Ref sig .tc := ⟨.hbm, 207, rfl⟩
abbrev main_v158 : Ref sig .tc := ⟨.hbm, 208, rfl⟩
abbrev main_v159 : Ref sig .tc := ⟨.hbm, 209, rfl⟩
abbrev main_c_34 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_c_35 : Ref sig .tc := ⟨.hbm, 217, rfl⟩
abbrev main_v166 : Ref sig .tc := ⟨.hbm, 218, rfl⟩
abbrev main_v167 : Ref sig .tc := ⟨.hbm, 219, rfl⟩
abbrev main_c_36 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_cst_37 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_call3_cst : Ref sig .tc := ⟨.hbm, 241, rfl⟩
abbrev main_call3_v0 : Ref sig .tc := ⟨.hbm, 242, rfl⟩
abbrev main_v187 : Ref sig .tc := ⟨.hbm, 243, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x256_S50000x256_1_0_0_1_n_n_wf : DotDims.WF S50000x128 S128x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel program's run with its two result buffers named: every weakly fair execution of @main on the
  TensorCores terminates without fault, and in every final state the two results hold the contents of the run's last
  segment boundary, while the eight argument arrays hold what they held at launch.
-/
import proofs.«107474_j21921513078817_2_alg».proof.Proof.Gen.KernelIdeal.Frame

set_option maxRecDepth 16384

noncomputable section

namespace Cert.Gcn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, results included: from any memory with zero counters the program terminates, nothing faulting, and every
    final state reads, at each unscoped buffer, the contents of the last segment boundary. At the two result buffers
    that is the boundary's value itself; at an argument array the boundary's value is the launch memory's, since no
    host operation and no region writes an argument. -/
theorem run : θ_run defs (onTc (τ := τ) (main (F := F))) ⟨m, fun _ => 0, ρ⟩ (fun r => ∀ c : Dev nD,
      r.2.mem ((c.tc : Thread nD τ).loc main_v84) = W12 m ρ c (Proc.devRef .tc main_v84)
      ∧ r.2.mem ((c.tc : Thread nD τ).loc main_v169) = W12 m ρ c (Proc.devRef .tc main_v169)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v84 (by decide)),
       h c _ (mem_uc main_v169 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.Gcn.KRun

end
-- ==== Proof.Pass.lean ====
/-
  Which buffers the kernel program's run leaves alone. The run is a fold of buffer contents through twelve segment
  boundaries: a stretch of host operations changes only the result buffers of its operations, and a region changes only
  its output arrays (an input array is read through a window and left as entered; every other buffer is bypassed). So
  a buffer's contents at one boundary equal its contents at an earlier one whenever nothing in between writes it. Below:
  the argument arrays each dense layer and each graph reads are still the launch memory's where they are read, each
  graph's edge data are kept across the two regions that use them, and the first result is kept to the end of the run.
-/
import proofs.«107474_j21921513078817_2_alg».proof.Proof.Gen.KernelIdeal.Frame

set_option maxRecDepth 16384

noncomputable section

namespace Cert.Gcn.Pass

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations leaves a buffer that none of its operations writes as it was: the buffer differs from
    the result buffer of every operation of the stretch. -/
local macro "kept_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## The first graph -/

/-- The first dense layer's weight matrix at the first region's entry is the launch memory's: the opening stretch does not write it. -/
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by kept_by hostOps0
    _ = m ((c : Thread nD τ).loc main_arg4) := rfl

/-- The second dense layer's weight matrix at the second region's entry is the launch memory's: neither stretch before it writes it and the first region bypasses it. -/
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by kept_by hostOps1
    _ = W1 m ρ c (Proc.devRef .tc main_arg6) := W2_of_ne m ρ c main_arg6 (by decide)
    _ = W0 m ρ c (Proc.devRef .tc main_arg6) := by kept_by hostOps0
    _ = m ((c : Thread nD τ).loc main_arg6) := rfl

/-- The second dense layer's bias at the second region's exit is the launch memory's: no stretch up to there writes it and both regions bypass it. -/
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by kept_by hostOps1
    _ = W1 m ρ c (Proc.devRef .tc main_arg7) := W2_of_ne m ρ c main_arg7 (by decide)
    _ = W0 m ρ c (Proc.devRef .tc main_arg7) := by kept_by hostOps0
    _ = m ((c : Thread nD τ).loc main_arg7) := rfl

/-- The first graph's row-0 edge indices are kept from the first region's entry to the second region's exit. -/
theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by kept_by hostOps1
    _ = W1 m ρ c (Proc.devRef .tc main_v1) := W2_of_ne m ρ c main_v1 (by decide)

/-- The first graph's row-1 edge indices are kept from the first region's entry to the second region's exit. -/
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by kept_by hostOps1
    _ = W1 m ρ c (Proc.devRef .tc main_v3) := W2_of_ne m ρ c main_v3 (by decide)

/-- The first graph's inverse square roots of the degrees are kept from the first region's entry to the second region's exit. -/
theorem W4_v10 (c : Dev nD) : W4 m ρ c (Proc.devRef .tc main_v10) = W1 m ρ c (Proc.devRef .tc main_v10) :=
  calc W4 m ρ c (Proc.devRef .tc main_v10)
    _ = W3 m ρ c (Proc.devRef .tc main_v10) := W4_of_ne m ρ c main_v10 (by decide)
    _ = W2 m ρ c (Proc.devRef .tc main_v10) := by kept_by hostOps1
    _ = W1 m ρ c (Proc.devRef .tc main_v10) := W2_of_ne m ρ c main_v10 (by decide)

/-! ## The second graph, and the first result kept to the end -/

/-- The first result, once written, is kept to the end of the run: none of the later stretches writes it and the last two regions bypass it. -/
theorem W12_v84 (c : Dev nD) : W12 m ρ c (Proc.devRef .tc main_v84) = W6 m ρ c (Proc.devRef .tc main_v84) :=
  calc W12 m ρ c (Proc.devRef .tc main_v84)
    _ = W11 m ρ c (Proc.devRef .tc main_v84) := by kept_by hostOps4_1
    _ = W10 m ρ c (Proc.devRef .tc main_v84) := by kept_by hostOps4
    _ = W9 m ρ c (Proc.devRef .tc main_v84) := W10_of_ne m ρ c main_v84 (by decide)
    _ = W8 m ρ c (Proc.devRef .tc main_v84) := by kept_by hostOps3
    _ = W7 m ρ c (Proc.devRef .tc main_v84) := W8_of_ne m ρ c main_v84 (by decide)
    _ = W6 m ρ c (Proc.devRef .tc main_v84) := by kept_by hostOps2_2

/-- The second graph's features at the boundary where the first result is written are the launch memory's. -/
theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := by kept_by hostOps2_1
    _ = W4 m ρ c (Proc.devRef .tc main_arg2) := by kept_by hostOps2
    _ = W3 m ρ c (Proc.devRef .tc main_arg2) := W4_of_ne m ρ c main_arg2 (by decide)
    _ = W2 m ρ c (Proc.devRef .tc main_arg2) := by kept_by hostOps1
    _ = W1 m ρ c (Proc.devRef .tc main_arg2) := W2_of_ne m ρ c main_arg2 (by decide)
    _ = W0 m ρ c (Proc.devRef .tc main_arg2) := by kept_by hostOps0
    _ = m ((c : Thread nD τ).loc main_arg2) := rfl

/-- The second graph's edge list at the boundary where the first result is written is the launch memory's. -/
theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := by kept_by hostOps2_1
    _ = W4 m ρ c (Proc.devRef .tc main_arg3) := by kept_by hostOps2
    _ = W3 m ρ c (Proc.devRef .tc main_arg3) := W4_of_ne m ρ c main_arg3 (by decide)
    _ = W2 m ρ c (Proc.devRef .tc main_arg3) := by kept_by hostOps1
    _ = W1 m ρ c (Proc.devRef .tc main_arg3) := W2_of_ne m ρ c main_arg3 (by decide)
    _ = W0 m ρ c (Proc.devRef .tc main_arg3) := by kept_by hostOps0
    _ = m ((c : Thread nD τ).loc main_arg3) := rfl

/-- The first dense layer's bias at the boundary where the first result is written is the launch memory's. -/
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := by kept_by hostOps2_1
    _ = W4 m ρ c (Proc.devRef .tc main_arg5) := by kept_by hostOps2
    _ = W3 m ρ c (Proc.devRef .tc main_arg5) := W4_of_ne m ρ c main_arg5 (by decide)
    _ = W2 m ρ c (Proc.devRef .tc main_arg5) := by kept_by hostOps1
    _ = W1 m ρ c (Proc.devRef .tc main_arg5) := W2_of_ne m ρ c main_arg5 (by decide)
    _ = W0 m ρ c (Proc.devRef .tc main_arg5) := by kept_by hostOps0
    _ = m ((c : Thread nD τ).loc main_arg5) := rfl

/-- The first dense layer's weight matrix at the third region's entry is the launch memory's: the first region reads it through an input window, which leaves it as entered, and nothing else up to there writes it. -/
theorem W7_arg4 (c : Dev nD) : W7 m ρ c (Proc.devRef .tc main_arg4) = m ((c : Thread nD τ).loc main_arg4) :=
  calc W7 m ρ c (Proc.devRef .tc main_arg4)
    _ = W6 m ρ c (Proc.devRef .tc main_arg4) := by kept_by hostOps2_2
    _ = W5 m ρ c (Proc.devRef .tc main_arg4) := by kept_by hostOps2_1
    _ = W4 m ρ c (Proc.devRef .tc main_arg4) := by kept_by hostOps2
    _ = W3 m ρ c (Proc.devRef .tc main_arg4) := W4_of_ne m ρ c main_arg4 (by decide)
    _ = W2 m ρ c (Proc.devRef .tc main_arg4) := by kept_by hostOps1
    _ = W1 m ρ c (Proc.devRef .tc main_arg4) := (W2_arr m ρ c 1).trans (((dat0 (V1 m ρ) c).arrAt_in 1 rfl _).trans (A_eq0 (V1 m ρ) c 1))
    _ = m ((c : Thread nD τ).loc main_arg4) := W1_arg4 m ρ c

/-- The second dense layer's weight matrix at the fourth region's entry is the launch memory's: the second region reads it through an input window, which leaves it as entered, and nothing else up to there writes it. -/
theorem W9_arg6 (c : Dev nD) : W9 m ρ c (Proc.devRef .tc main_arg6) = m ((c : Thread nD τ).loc main_arg6) :=
  calc W9 m ρ c (Proc.devRef .tc main_arg6)
    _ = W8 m ρ c (Proc.devRef .tc main_arg6) := by kept_by hostOps3
    _ = W7 m ρ c (Proc.devRef .tc main_arg6) := W8_of_ne m ρ c main_arg6 (by decide)
    _ = W6 m ρ c (Proc.devRef .tc main_arg6) := by kept_by hostOps2_2
    _ = W5 m ρ c (Proc.devRef .tc main_arg6) := by kept_by hostOps2_1
    _ = W4 m ρ c (Proc.devRef .tc main_arg6) := by kept_by hostOps2
    _ = W3 m ρ c (Proc.devRef .tc main_arg6) := (W4_arr m ρ c 1).trans (((dat1 (V3 m ρ) c).arrAt_in 1 rfl _).trans (A_eq1 (V3 m ρ) c 1))
    _ = m ((c : Thread nD τ).loc main_arg6) := W3_arg6 m ρ c

/-- The second dense layer's bias at the fourth region's exit is the launch memory's. -/
theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := by kept_by hostOps3
    _ = W7 m ρ c (Proc.devRef .tc main_arg7) := W8_of_ne m ρ c main_arg7 (by decide)
    _ = W6 m ρ c (Proc.devRef .tc main_arg7) := by kept_by hostOps2_2
    _ = W5 m ρ c (Proc.devRef .tc main_arg7) := by kept_by hostOps2_1
    _ = W4 m ρ c (Proc.devRef .tc main_arg7) := by kept_by hostOps2
    _ = m ((c : Thread nD τ).loc main_arg7) := W4_arg7 m ρ c

/-- The second graph's row-0 edge indices are kept from the third region's entry to the fourth region's exit. -/
theorem W10_v86 (c : Dev nD) : W10 m ρ c (Proc.devRef .tc main_v86) = W7 m ρ c (Proc.devRef .tc main_v86) :=
  calc W10 m ρ c (Proc.devRef .tc main_v86)
    _ = W9 m ρ c (Proc.devRef .tc main_v86) := W10_of_ne m ρ c main_v86 (by decide)
    _ = W8 m ρ c (Proc.devRef .tc main_v86) := by kept_by hostOps3
    _ = W7 m ρ c (Proc.devRef .tc main_v86) := W8_of_ne m ρ c main_v86 (by decide)

/-- The second graph's row-1 edge indices are kept from the third region's entry to the fourth region's exit. -/
theorem W10_v88 (c : Dev nD) : W10 m ρ c (Proc.devRef .tc main_v88) = W7 m ρ c (Proc.devRef .tc main_v88) :=
  calc W10 m ρ c (Proc.devRef .tc main_v88)
    _ = W9 m ρ c (Proc.devRef .tc main_v88) := W10_of_ne m ρ c main_v88 (by decide)
    _ = W8 m ρ c (Proc.devRef .tc main_v88) := by kept_by hostOps3
    _ = W7 m ρ c (Proc.devRef .tc main_v88) := W8_of_ne m ρ c main_v88 (by decide)

/-- The second graph's inverse square roots of the degrees are kept from the third region's entry to the fourth region's exit. -/
theorem W10_v95 (c : Dev nD) : W10 m ρ c (Proc.devRef .tc main_v95) = W7 m ρ c (Proc.devRef .tc main_v95) :=
  calc W10 m ρ c (Proc.devRef .tc main_v95)
    _ = W9 m ρ c (Proc.devRef .tc main_v95) := W10_of_ne m ρ c main_v95 (by decide)
    _ = W8 m ρ c (Proc.devRef .tc main_v95) := by kept_by hostOps3
    _ = W7 m ρ c (Proc.devRef .tc main_v95) := W8_of_ne m ρ c main_v95 (by decide)

end Cert.Gcn.Pass

end
-- ==== Proof.LibRows.lean ====
/-
  Row gathers and row scatters of the host, read at coordinates.

  `x[idx]` of a matrix `x : [N, C]` at a column of row numbers `idx : [R, 1]` is the matrix `[R, C]` whose row `r` is
  row `idx r` of `x`, the row number read as a signed integer and clamped into `[0, N − 1]`; the same for a flat
  array `x : [N]`, whose result is the array `[R]` of the named entries. A scatter of the rows of `u : [R, C]` into a
  matrix `[N, C]` at the row numbers `idx : [R, 1]` sends entry `(r, c)` of `u` to `(idx r, c)`: the row number is read
  signed and NOT clamped (an update whose row is outside the matrix is dropped), the column is kept.
-/
import Idealize.ShloMosaic.PureOps.Ideal
import Idealize.ShloMosaic.Lib.ValueIdx

noncomputable section

namespace Cert.LibRows

open Idealize.ShloMosaic Idealize.ShloMosaic.ValueIdx

variable {α : Type}

/-! ## Rows of a matrix -/

/-- The dimension numbers of a gather of whole rows: operand `[N, C]`, start indices `[R, 1]` (one row number each),
    result `[R, C]`; the slice is one row, its row axis collapsed, its column axis the result's. The conditions `wf`
    are decided on a program's literal shapes. -/
abbrev rowsDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (j : (⟨2, ![R, C]⟩ : Shape).Idx) :
    Host.gather (rowsDims N R C wf) x idx j
      = x (ix2 ⟨min (idx (ix2 (j 0) 0)).toInt.toNat (N - 1), by omega⟩ (j 1)) := by
  unfold Host.gather
  congr 1
  funext a
  refine Fin.ext ?_
  match a with
  | ⟨0, _⟩ =>
    show (rowsDims N R C wf).start j idx 0 + (rowsDims N R C wf).batchCoord j 0 + (rowsDims N R C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx j ⟨List.idxOf (0 : Fin 2) (rowsDims N R C wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    show (rowsDims N R C wf).start j idx 1 + (rowsDims N R C wf).batchCoord j 1 + (rowsDims N R C wf).offCoord j 1 = _
    rw [GatherDims.batchCoord_eq_zero _ _ _ List.not_mem_nil]
    unfold GatherDims.start
    rw [dif_neg (show (1 : Fin 2) ∉ (rowsDims N R C wf).startIndexMap from
      (show (1 : Fin 2) ∉ ([0] : List (Fin 2)) from by decide))]
    simp only [Nat.add_zero, Nat.zero_add]
    unfold GatherDims.offCoord
    rw [dif_pos ((GatherDims.mem_sKept (rowsDims N R C wf) 1).mpr
      ⟨(show (1 : Fin 2) ∉ ([0] : List (Fin 2)) from by decide), List.not_mem_nil⟩)]
    rfl

/-! ## Entries of a flat array -/

/-- The dimension numbers of a gather of single entries: operand `[N]`, start indices `[R, 1]`, result `[R]`; the slice is
    one entry, its axis collapsed. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (entriesDims N R wf) x idx j = x (ix1 ⟨min (idx (ix2 (j 0) 0)).toInt.toNat (N - 1), by omega⟩) := by
  unfold Host.gather
  congr 1
  funext a
  obtain rfl : a = 0 := Subsingleton.elim _ _
  refine Fin.ext ?_
  show (entriesDims N R wf).start j idx 0 + (entriesDims N R wf).batchCoord j 0 + (entriesDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx j ⟨List.idxOf (0 : Fin 1) (entriesDims N R wf).startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-! ## Rows scattered into a matrix -/

/-- The dimension numbers of a scatter of whole rows: operand `[N, C]`, scatter indices `[R, 1]` (one row number each),
    updates `[R, C]`; an update row is a window along the operand's columns, placed at the row its index names. -/
abbrev rowsScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window's start along the rows is the row number `idx[r, 0]`, read signed. -/
theorem rowsScatter_start_row {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 0 = (idx (ix2 (j 0) 0)).toInt := by
  unfold ScatterDims.start
  rw [dif_pos (show (0 : Fin 2) ∈ (rowsScatter N R C wf).scatterDimsToOperandDims from List.mem_singleton.mpr rfl)]
  have hsi : (rowsScatter N R C wf).siIdx j ⟨List.idxOf (0 : Fin 2) (rowsScatter N R C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The window's start along the columns is `0`: the scatter indices name rows only. -/
theorem rowsScatter_start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowsScatter N R C wf).start j idx 1 = 0 := by
  unfold ScatterDims.start
  rw [dif_neg (show (1 : Fin 2) ∉ (rowsScatter N R C wf).scatterDimsToOperandDims from
    (show (1 : Fin 2) ∉ ([0] : List (Fin 2)) from by decide))]

/-- The window coordinate along the rows is `0`: the row axis is inserted, not a window axis. -/
theorem rowsScatter_window_row {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 0 = 0 := by
  unfold ScatterDims.window
  rw [dif_neg (show (0 : Fin 2) ∉ (rowsScatter N R C wf).sKept from
    (show (0 : Fin 2) ∉ (List.finRange 2).filter (· ∉ ([0] : List (Fin 2))) from by decide))]

/-- The window coordinate along the columns is the update's column. -/
theorem rowsScatter_window_col {N R C : Nat} (wf : ScatterDims.WF ⟨2, ![N, C]⟩ ⟨2, ![R, 1]⟩ ⟨2, ![R, C]⟩ [1] [0] [0] 1)
    (j : (⟨2, ![R, C]⟩ : Shape).Idx) : (rowsScatter N R C wf).window j 1 = (j 1).val := by
  unfold ScatterDims.window
  rw [dif_pos (show (1 : Fin 2) ∈ (rowsScatter N R C wf).sKept from
    (show (1 : Fin 2) ∈ (List.finRange 2).filter (· ∉ ([0] : List (Fin 2))) from by decide))]
  rfl

/-- WHERE A SCATTERED ROW LANDS: if update entry `(r, c)` lands at operand index `i`, then `i`'s row is the row number
    `idx[r, 0]` read as a signed integer (not clamped: an update outside the operand lands nowhere) and `i`'s column is
    `c`. -/
theorem scatter_rows_result {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx)
    (h : (rowsScatter N R C wf).resultIdx? j idx = some i) :
    (idx (ix2 (j 0) 0)).toInt = ((i 0).val : Int) ∧ (i 1).val = (j 1).val := by
  unfold ScatterDims.resultIdx? at h
  split at h
  · rename_i hin
    have hi := Option.some.inj h
    have h0 : ((rowsScatter N R C wf).start j idx 0 + ((rowsScatter N R C wf).window j 0 : Int)).toNat = (i 0).val :=
      congrArg (fun f : (⟨2, ![N, C]⟩ : Shape).Idx => (f 0).val) hi
    have h1 : ((rowsScatter N R C wf).start j idx 1 + ((rowsScatter N R C wf).window j 1 : Int)).toNat = (i 1).val :=
      congrArg (fun f : (⟨2, ![N, C]⟩ : Shape).Idx => (f 1).val) hi
    have hb := (hin 0).1
    rw [rowsScatter_start_row, rowsScatter_window_row] at h0 hb
    rw [rowsScatter_start_col, rowsScatter_window_col] at h1
    constructor <;> omega
  · exact absurd h (by simp)

end Cert.LibRows

end
-- ==== Proof.LibRowSum.lean ====
/-
  A scatter that adds rows onto a matrix, read at one entry as a sum over the rows that land there.

  Update row `e` of `u : [R, C]` lands on row `idx[e, 0]` (read signed, not clamped) of the operand `[N, C]`, its
  columns kept. So update entry `(e, c')` lands on operand entry `(p, c)` exactly when `idx[e, 0] = p` and `c' = c`,
  and the scattered sum at `(p, c)` is the operand's entry plus the sum, over the update rows `e` whose row number is
  `p`, of `u[e, c]`. The set of those rows does not depend on the column nor on the number of columns: two scatters of
  different widths at the same row numbers sum over the same rows.
-/
import proofs.«107474_j21921513078817_2_alg».proof.Proof.LibRows
import Idealize.ShloMosaic.PureOps.Ideal.Laws

noncomputable section

namespace Cert.LibRowSum

open Idealize.ShloMosaic Idealize.ShloMosaic.ValueIdx Cert.LibRows
open scoped BigOperators

/-- The update rows whose row number, read signed, is `p`. -/
def rowsAt {R w : ℕ} (idx : IVec ⟨2, ![R, 1]⟩ w) (p : ℕ) : Finset (Fin R) :=
  Finset.univ.filter fun e : Fin R => (idx (ix2 e 0)).toInt = (p : Int)

/-- WHERE A SCATTERED ROW LANDS, both ways: update entry `j` lands at operand index `i` exactly when `j`'s row number,
    read signed, is `i`'s row and the columns agree. -/
theorem rowsScatter_lands_iff {N R C w : ℕ} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) (i : (⟨2, ![N, C]⟩ : Shape).Idx) :
    (rowsScatter N R C wf).resultIdx? j idx = some i
      ↔ (idx (ix2 (j 0) 0)).toInt = ((i 0).val : Int) ∧ (j 1).val = (i 1).val := by
  constructor
  · intro h
    have := scatter_rows_result wf idx j i h
    exact ⟨this.1, this.2.symm⟩
  · rintro ⟨h0, h1⟩
    have hi0 := (i 0).isLt
    have hi1 := (i 1).isLt
    have hs0 := rowsScatter_start_row wf idx j
    have hw0 := rowsScatter_window_row wf j
    have hs1 := rowsScatter_start_col wf idx j
    have hw1 := rowsScatter_window_col wf j
    have hin : ∀ a, 0 ≤ (rowsScatter N R C wf).start j idx a + ((rowsScatter N R C wf).window j a : Int)
        ∧ (rowsScatter N R C wf).start j idx a + ((rowsScatter N R C wf).window j a : Int)
            < ((⟨2, ![N, C]⟩ : Shape).size a : Int) := by
      refine Fin.forall_fin_two.mpr ⟨?_, ?_⟩
      · rw [hs0, hw0, h0]; constructor <;> omega
      · rw [hs1, hw1, h1]; constructor <;> omega
    unfold ScatterDims.resultIdx?
    rw [dif_pos hin]
    refine congrArg some (funext (Fin.forall_fin_two.mpr ⟨Fin.ext ?_, Fin.ext ?_⟩))
    · show ((rowsScatter N R C wf).start j idx 0 + ((rowsScatter N R C wf).window j 0 : Int)).toNat = (i 0).val
      rw [hs0, hw0, h0]; omega
    · show ((rowsScatter N R C wf).start j idx 1 + ((rowsScatter N R C wf).window j 1 : Int)).toNat = (i 1).val
      rw [hs1, hw1, h1]; omega

/-- THE ROW SCATTER-ADD READ AT `(p, c)`: the operand's entry plus the sum over the update rows whose row number is `p`
    of their entry in column `c`. -/
theorem scatterAdd_rows_apply {N R C w : ℕ} (wf : ScatterDims.WF ⟨2, ![N, C]⟩ ⟨2, ![R, 1]⟩ ⟨2, ![R, C]⟩ [1] [0] [0] 1)
    (z : (⟨2, ![N, C]⟩ : Shape).Idx → EReal) (idx : IVec ⟨2, ![R, 1]⟩ w) (upd : (⟨2, ![R, C]⟩ : Shape).Idx → EReal)
    (p : Fin N) (c : Fin C) :
    Host.scatterAdd (F := Ideal) (φ := .f32) (rowsScatter N R C wf) z idx upd (ix2 p c)
      = z (ix2 p c) + ∑ e ∈ rowsAt idx p.val, upd (ix2 e c) := by
  show z (ix2 p c) + ∑ j ∈ Finset.univ.filter (fun j => (rowsScatter N R C wf).resultIdx? j idx = some (ix2 p c)), upd j = _
  congr 1
  rw [Finset.filter_congr (fun j _ => rowsScatter_lands_iff wf idx j (ix2 p c)), Finset.sum_filter, sum_idx2]
  unfold rowsAt
  rw [Finset.sum_filter]
  refine Finset.sum_congr rfl fun e _ => ?_
  by_cases he : (idx (ix2 e 0)).toInt = (p.val : Int)
  · rw [if_pos he]
    rw [Finset.sum_eq_single c]
    · rw [if_pos ⟨he, rfl⟩]
    · intro b _ hb
      rw [if_neg]
      rintro ⟨_, h⟩
      exact hb (Fin.ext h)
    · intro h; exact absurd (Finset.mem_univ c) h
  · rw [if_neg he]
    refine Finset.sum_eq_zero fun b _ => ?_
    rw [if_neg]
    rintro ⟨h, _⟩
    exact he h

end Cert.LibRowSum

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«107474_j21921513078817_2_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.LibDegreeWeight.lean ====
/-
  The node weights of a graph convolution: the inverse square root of a degree, and zero where the degree is zero.

  A degree is a count: zero plus a sum of ones over the edges that land on the node. On the extended reals the count is
  a natural number, so its inverse square root is a real number that is not negative, and the guarded form
  `deg > 0 ? rsqrt deg : 0` is always such a number. That is all the algebra of the convolution needs of a weight:
  multiplication by it distributes over sums of arbitrary extended reals.
-/
import Idealize.ShloMosaic.PureOps.Ideal.Laws
import Idealize.ShloMosaic.Lib.IdealHost

noncomputable section

namespace Cert.LibDegreeWeight

open Idealize.ShloMosaic Idealize.ShloMosaic.ValueIdx

/-- A sum of ones over a finite set is the set's size. -/
theorem sum_ones {ι : Type} (s : Finset ι) : (∑ _j ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

/-- The guarded inverse square root of a count is not negative and not infinite. -/
theorem guarded_rsqrt_count (n : ℕ) :
    0 ≤ Scalar.select (Ideal.cmp .ogt ((n : ℝ) : EReal) 0) (Ideal.rsqrt ((n : ℝ) : EReal)) (0 : EReal)
    ∧ Scalar.select (Ideal.cmp .ogt ((n : ℝ) : EReal) 0) (Ideal.rsqrt ((n : ℝ) : EReal)) (0 : EReal) ≠ ⊤ := by
  rcases Nat.eq_zero_or_pos n with h | h
  · subst h
    have : Ideal.cmp .ogt (((0 : ℕ) : ℝ) : EReal) 0 = 0#1 := by simp [Ideal.cmp]
    rw [this, select_zero]
    exact ⟨le_refl _, EReal.zero_ne_top⟩
  · have hpos : (0 : ℝ) < (n : ℝ) := by exact_mod_cast h
    have : Ideal.cmp .ogt ((n : ℝ) : EReal) 0 = 1#1 := by
      have : (0 : EReal) < ((n : ℝ) : EReal) := by exact_mod_cast hpos
      simp [Ideal.cmp, h]
    rw [this, select_one]
    have hr : Ideal.rsqrt ((n : ℝ) : EReal) = (((Real.sqrt (n : ℝ))⁻¹ : ℝ) : EReal) := by
      show (if (n : ℝ) < 0 then ⊥ else if (n : ℝ) = 0 then ⊤ else (((Real.sqrt (n : ℝ))⁻¹ : ℝ) : EReal)) = _
      rw [if_neg (not_lt.mpr hpos.le), if_neg hpos.ne']
    rw [hr]
    exact ⟨by exact_mod_cast inv_nonneg.mpr (Real.sqrt_nonneg _), EReal.coe_ne_top _⟩

/-- The same for a degree as the programs compute it: the 32-bit float zero plus a sum of 32-bit float ones over a
    finite set of edges, compared with the float zero, the alternative the float zero. -/
theorem guarded_rsqrt_degree {ι : Type} (s : Finset ι) (deg z : EReal) (u : ι → EReal) (hd : deg = z + ∑ j ∈ s, u j)
    (hz : z = Ideal.ofBits .f32 0x00000000#32) (hu : ∀ j, u j = Ideal.ofBits .f32 0x3F800000#32) :
    0 ≤ Scalar.select (Ideal.cmp .ogt deg (Ideal.ofBits .f32 0x00000000#32)) (Ideal.rsqrt deg) (Ideal.ofBits .f32 0x00000000#32)
    ∧ Scalar.select (Ideal.cmp .ogt deg (Ideal.ofBits .f32 0x00000000#32)) (Ideal.rsqrt deg) (Ideal.ofBits .f32 0x00000000#32) ≠ ⊤ := by
  have hd' : deg = ((s.card : ℝ) : EReal) := by
    rw [hd, hz, Finset.sum_congr rfl (fun j _ => hu j), Ideal.ofBits_zero_f32, Ideal.ofBits_one_f32, zero_add, sum_ones]
  rw [hd', Ideal.ofBits_zero_f32]
  exact guarded_rsqrt_count s.card

/-- A scatter that adds updates onto an array reads, at any index, the array's entry plus the sum of the updates that
    land there (a finite set of them). -/
theorem scatterAdd_apply {s si u : Shape} {w : ℕ} (d : ScatterDims s si u) (z : s.Idx → EReal) (idx : IVec si w)
    (upd : u.Idx → EReal) (i : s.Idx) :
    ∃ t : Finset u.Idx, Host.scatterAdd (F := Ideal) (φ := .f32) d z idx upd i = z i + ∑ j ∈ t, upd j :=
  ⟨_, rfl⟩

/-- The guarded inverse square root of an array, read at an index. -/
theorem guarded_apply {s : Shape} (deg z0 z1 : s.Idx → EReal) (i : s.Idx) :
    select (cmpf (F := Ideal) (φ := .f32) .ogt deg z0) (Host.rsqrt (F := Ideal) (φ := .f32) deg) z1 i
      = Scalar.select (Ideal.cmp .ogt (deg i) (z0 i)) (Ideal.rsqrt (deg i)) (z1 i) := rfl

end Cert.LibDegreeWeight

end
-- ==== Proof.Gcn.lean ====
/-
  One graph-convolution aggregation, as a function of its edge data, and what it holds at an entry.

  For a graph on N nodes with R edges (sender `src e`, receiver `dst e`), a per-edge weight `norm e`, a per-node weight
  `d2 p` and node features `feat : [N, C]`, the aggregation gathers each edge's sender row, scales it by the edge's weight,
  adds the scaled rows onto their receiver's row starting from zero, and adds the node's own row scaled by its weight:
      agg feat (p, c) = (0 + sum over the edges e received by p of feat (src e, c) * norm e) + feat (p, c) * d2 p.
  The set of edges received by p does not depend on the column c nor on the width C, so the aggregation is linear in the
  features row by row: this is what lets a matrix product be taken before or after it.
-/
import proofs.«107474_j21921513078817_2_alg».proof.Proof.LibRowSum
import proofs.«107474_j21921513078817_2_alg».proof.Proof.LibHostDense
import proofs.«107474_j21921513078817_2_alg».proof.Proof.LibDegreeWeight
import Idealize.ShloMosaic.Lib.Pipeline.Value

noncomputable section

namespace Cert.Gcn

open Idealize.ShloMosaic Idealize.ShloMosaic.ValueIdx Cert.LibRows Cert.LibRowSum
open scoped BigOperators

variable {α : Type}

/-- An array `[n]` laid out as the column `[n, 1]` reads, at `(e, 0)`, the array at `e`. -/
theorem bcastCol_apply {n : ℕ} (x : (⟨1, ![n]⟩ : Shape).Idx → α)
    (h : (⟨1, ![n]⟩ : Shape).BroadcastsInDim ⟨2, ![n, 1]⟩ (![0] : Fin 1 → Fin 2)) (e : Fin n) (u : Fin 1) :
    broadcastInDim ⟨2, ![n, 1]⟩ ![0] h x (ix2 e u) = x (ix1 e) := by
  refine broadcastInDim_apply _ h x (ix2 e u) (ix1 e) fun a => ?_
  match a with
  | ⟨0, _⟩ =>
    show e.val = if n = 1 then 0 else e.val
    split
    · have := e.isLt; omega
    · rfl

/-- A column `[n, 1]` repeated over `c` columns reads, at `(e, q)`, the column at `e`. -/
theorem bcastCols_apply {n c : ℕ} (x : (⟨2, ![n, 1]⟩ : Shape).Idx → α)
    (h : (⟨2, ![n, 1]⟩ : Shape).BroadcastsInDim ⟨2, ![n, c]⟩ (![0, 1] : Fin 2 → Fin 2)) (e : Fin n) (q : Fin c) :
    broadcastInDim ⟨2, ![n, c]⟩ ![0, 1] h x (ix2 e q) = x (ix2 e (0 : Fin 1)) := by
  refine broadcastInDim_apply _ h x (ix2 e q) (ix2 e (0 : Fin 1)) fun a => ?_
  match a with
  | ⟨0, _⟩ =>
    show e.val = if n = 1 then 0 else e.val
    split
    · have := e.isLt; omega
    · rfl
  | ⟨1, _⟩ => show 0 = if (1 : ℕ) = 1 then 0 else q.val; rw [if_pos rfl]

/-- The row a gathered row number names: read signed and clamped into the matrix. -/
def clampRow (N : ℕ) (hN : 0 < N) (v : BitVec 32) : Fin N := ⟨min v.toInt.toNat (N - 1), by omega⟩

section Agg

variable (N R C : ℕ)
  (wfS : ScatterDims.WF ⟨2, ![N, C]⟩ ⟨2, ![R, 1]⟩ ⟨2, ![R, C]⟩ [1] [0] [0] 1)
  (wfG : GatherDims.WF ⟨2, ![N, C]⟩ ⟨2, ![R, 1]⟩ ⟨2, ![R, C]⟩ [1] [0] [] [0] [] 1 ![1, C])
  (h0 : (⟨0, ![]⟩ : Shape).BroadcastsInDim ⟨2, ![N, C]⟩ (![] : Fin 0 → Fin 2))
  (hcol : (⟨1, ![R]⟩ : Shape).BroadcastsInDim ⟨2, ![R, 1]⟩ (![0] : Fin 1 → Fin 2))
  (hwide : (⟨2, ![R, 1]⟩ : Shape).BroadcastsInDim ⟨2, ![R, C]⟩ (![0, 1] : Fin 2 → Fin 2))
  (hcolN : (⟨1, ![N]⟩ : Shape).BroadcastsInDim ⟨2, ![N, 1]⟩ (![0] : Fin 1 → Fin 2))
  (hwideN : (⟨2, ![N, 1]⟩ : Shape).BroadcastsInDim ⟨2, ![N, C]⟩ (![0, 1] : Fin 2 → Fin 2))

/-- The aggregation, in the programs' own operations: scatter-add onto zeros of the gathered sender rows times the
    edge weights, plus the features times the node weights. -/
def agg (src dst : IVec ⟨1, ![R]⟩ 32) (norm : FVec Ideal ⟨1, ![R]⟩ .f32) (d2 : FVec Ideal ⟨1, ![N]⟩ .f32)
    (feat : FVec Ideal ⟨2, ![N, C]⟩ .f32) : FVec Ideal ⟨2, ![N, C]⟩ .f32 :=
  addf
    (Host.scatterAdd (F := Ideal) (φ := .f32) (rowsScatter N R C wfS)
      (broadcastInDim ⟨2, ![N, C]⟩ ![] h0 (constant (F := Ideal) ⟨0, ![]⟩ .f32 0x00000000#32))
      (broadcastInDim ⟨2, ![R, 1]⟩ ![0] hcol dst)
      (mulf (Host.gather (rowsDims N R C wfG) feat (broadcastInDim ⟨2, ![R, 1]⟩ ![0] hcol src))
        (broadcastInDim ⟨2, ![R, C]⟩ ![0, 1] hwide (broadcastInDim ⟨2, ![R, 1]⟩ ![0] hcol norm))))
    (mulf feat (broadcastInDim ⟨2, ![N, C]⟩ ![0, 1] hwideN (broadcastInDim ⟨2, ![N, 1]⟩ ![0] hcolN d2)))

/-- The edges received by node `p`: those whose receiver, read signed, is `p`. -/
def received (dst : IVec ⟨1, ![R]⟩ 32) (p : ℕ) : Finset (Fin R) :=
  Finset.univ.filter fun e : Fin R => (dst (ix1 e)).toInt = (p : Int)

/-- THE AGGREGATION AT AN ENTRY. -/
theorem agg_apply (hN : 0 < N) (src dst : IVec ⟨1, ![R]⟩ 32) (norm : FVec Ideal ⟨1, ![R]⟩ .f32)
    (d2 : FVec Ideal ⟨1, ![N]⟩ .f32) (feat : FVec Ideal ⟨2, ![N, C]⟩ .f32) (p : Fin N) (c : Fin C) :
    agg N R C wfS wfG h0 hcol hwide hcolN hwideN src dst norm d2 feat (ix2 p c)
      = (Ideal.ofBits .f32 0x00000000#32
          + ∑ e ∈ received R dst p.val, feat (ix2 (clampRow N hN (src (ix1 e))) c) * norm (ix1 e))
        + feat (ix2 p c) * d2 (ix1 p) := by
  unfold agg
  rw [addf_apply, mulf_apply, scatterAdd_rows_apply, bcastCols_apply, bcastCol_apply,
    Cert.LibHostDense.bcastScalar_apply, constant_apply]
  have hrec : rowsAt (broadcastInDim ⟨2, ![R, 1]⟩ ![0] hcol dst) p.val = received R dst p.val := by
    unfold rowsAt received
    refine Finset.filter_congr fun e _ => ?_
    rw [bcastCol_apply]
  rw [hrec]
  congr 2
  refine Finset.sum_congr rfl fun e _ => ?_
  rw [mulf_apply, gather_rows_apply hN, bcastCols_apply, bcastCol_apply]
  have hb := bcastCol_apply src hcol e (0 : Fin 1)
  exact congrArg (fun r : Fin N => feat (ix2 r c) * norm (ix1 e))
    (Fin.ext (show min (broadcastInDim ⟨2, ![R, 1]⟩ ![0] hcol src (ix2 e (0 : Fin 1))).toInt.toNat (N - 1)
      = min (src (ix1 e)).toInt.toNat (N - 1) by rw [hb]))

end Agg

/-! ## The node weights are real numbers -/

/-- The inverse square root of one plus a count is a non-negative real number. -/
theorem rsqrt_count_succ {ι : Type} (t : Finset ι) (z one : EReal) (u : ι → EReal)
    (hz : z = Ideal.ofBits .f32 0x00000000#32) (h1 : one = Ideal.ofBits .f32 0x3F800000#32) (hu : ∀ j, u j = one) :
    ∃ r : ℝ, Ideal.rsqrt ((z + ∑ j ∈ t, u j) + one) = (r : EReal) := by
  have hd : (z + ∑ j ∈ t, u j) + one = (((t.card : ℝ) + 1 : ℝ) : EReal) := by
    rw [hz, Finset.sum_congr rfl (fun j _ => hu j), h1, Ideal.ofBits_zero_f32, Ideal.ofBits_one_f32, zero_add,
      Cert.LibDegreeWeight.sum_ones]
    push_cast
    rfl
  rw [hd]
  have hpos : (0 : ℝ) < (t.card : ℝ) + 1 := by positivity
  refine ⟨(Real.sqrt ((t.card : ℝ) + 1))⁻¹, ?_⟩
  show (if (t.card : ℝ) + 1 < 0 then ⊥ else if (t.card : ℝ) + 1 = 0 then ⊤
    else (((Real.sqrt ((t.card : ℝ) + 1))⁻¹ : ℝ) : EReal)) = _
  rw [if_neg (not_lt.mpr hpos.le), if_neg hpos.ne']

end Cert.Gcn

end
-- ==== Proof.Dense.lean ====
/-
  A layer of a graph network applies one matrix to every node's row of features: entry (p, q) of the result is row p of
  the features against column q of the weights, a sum over the feature axis, optionally plus entry q of a bias row.
  These are the whole-array functions a row-blocked matrix-product kernel computes, whatever the number of row blocks.
-/
import Idealize.ShloMosaic.PureOps.Ideal
import Idealize.ShloMosaic.Lib.ValueIdx

noncomputable section

namespace Cert.Gcn

open Idealize.ShloMosaic Idealize.ShloMosaic.ValueIdx
open scoped BigOperators

/-- The matrix product, entry by entry: row `p` of `a` against column `q` of `w`. -/
def dense {M K N : ℕ} (a : (⟨2, ![M, K]⟩ : Shape).Idx → EReal) (w : (⟨2, ![K, N]⟩ : Shape).Idx → EReal) :
    (⟨2, ![M, N]⟩ : Shape).Idx → EReal :=
  fun j => ∑ k : Fin K, a (ix2 (j 0) k) * w (ix2 k (j 1))

/-- The matrix product plus a bias row repeated over the rows. -/
def denseBias {M K N : ℕ} (a : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => (∑ k : Fin K, a (ix2 (j 0) k) * w (ix2 k (j 1))) + b (ix2 (0 : Fin 1) (j 1))

theorem dense_apply {M K N : ℕ} (a : (⟨2, ![M, K]⟩ : Shape).Idx → EReal) (w : (⟨2, ![K, N]⟩ : Shape).Idx → EReal)
    (p : Fin M) (q : Fin N) : dense a w (ix2 p q) = ∑ k : Fin K, a (ix2 p k) * w (ix2 k q) := rfl

theorem denseBias_apply {M K N : ℕ} (a : (⟨2, ![M, K]⟩ : Shape).Idx → EReal) (w : (⟨2, ![K, N]⟩ : Shape).Idx → EReal)
    (b : (⟨2, ![1, N]⟩ : Shape).Idx → EReal) (p : Fin M) (q : Fin N) :
    denseBias a w b (ix2 p q) = (∑ k : Fin K, a (ix2 p k) * w (ix2 k q)) + b (ix2 (0 : Fin 1) q) := rfl

end Cert.Gcn

end
-- ==== Proof.Spec.lean ====
/-
  A two-layer graph convolution on one graph of 50000 nodes and 800000 edges, as one function of its inputs.

  The edge list `edge : [2, 800000]` holds the senders (row 0) and the receivers (row 1). A node's degree is one plus the
  number of edges it receives; its weight is the inverse square root of the degree. An edge's weight is the product of
  its two ends' weights (row numbers wrapped once when negative, then clamped, as array indexing does). One aggregation
  `agg` (Gcn.lean) sums, for every node, its received senders' feature rows times the edge weights, plus its own row times
  its squared weight.
  The reference network applies, per layer, the weight matrix FIRST and aggregates the product:
      hid = relu (agg (x · W1) + b1),   out = relu (agg (hid · W2) + b2).
  The kernel network aggregates the 128 input features first and multiplies afterwards in its first layer:
      hid' = relu ((agg x) · W1 + b1),  out' = relu (agg (hid' · W2) + b2).
  Both are stated here over the same definitions, so that what differs is visible: the order of `agg` and the product
  in the first layer.
-/
import proofs.«107474_j21921513078817_2_alg».proof.Proof.Gcn
import proofs.«107474_j21921513078817_2_alg».proof.Proof.Dense

noncomputable section

namespace Cert.Gcn

open Idealize.ShloMosaic Idealize.ShloMosaic.ValueIdx Cert.LibRows

/-! ## Shapes -/

abbrev E2 : Shape := ⟨2, ![2, 800000]⟩
abbrev E1 : Shape := ⟨2, ![1, 800000]⟩
abbrev ER : Shape := ⟨1, ![800000]⟩
abbrev ERc : Shape := ⟨2, ![800000, 1]⟩
abbrev S0 : Shape := ⟨0, ![]⟩
abbrev NN : Shape := ⟨1, ![50000]⟩
abbrev NNc : Shape := ⟨2, ![50000, 1]⟩
abbrev X128 : Shape := ⟨2, ![50000, 128]⟩
abbrev X256 : Shape := ⟨2, ![50000, 256]⟩
abbrev U128 : Shape := ⟨2, ![800000, 128]⟩
abbrev U256 : Shape := ⟨2, ![800000, 256]⟩
abbrev Wa : Shape := ⟨2, ![128, 256]⟩
abbrev Wb : Shape := ⟨2, ![256, 128]⟩
abbrev B256 : Shape := ⟨1, ![256]⟩
abbrev B256r : Shape := ⟨2, ![1, 256]⟩
abbrev B128 : Shape := ⟨1, ![128]⟩
abbrev B128r : Shape := ⟨2, ![1, 128]⟩

/-- The side conditions of the operations below, over these literal shapes (each decidable). -/
structure Side : Prop where
  sl0 : E2.Slices ![0, 0] E1
  sl1 : E2.Slices ![1, 0] E1
  sc : E1.ShapeCasts ER
  bR : S0.BroadcastsInDim ER (![] : Fin 0 → Fin ER.rank)
  bN : S0.BroadcastsInDim NN (![] : Fin 0 → Fin NN.rank)
  col : ER.BroadcastsInDim ERc (![0] : Fin 1 → Fin ERc.rank)
  colN : NN.BroadcastsInDim NNc (![0] : Fin 1 → Fin NNc.rank)
  w128 : ERc.BroadcastsInDim U128 (![0, 1] : Fin 2 → Fin U128.rank)
  w256 : ERc.BroadcastsInDim U256 (![0, 1] : Fin 2 → Fin U256.rank)
  n128 : NNc.BroadcastsInDim X128 (![0, 1] : Fin 2 → Fin X128.rank)
  n256 : NNc.BroadcastsInDim X256 (![0, 1] : Fin 2 → Fin X256.rank)
  z128 : S0.BroadcastsInDim X128 (![] : Fin 0 → Fin X128.rank)
  z256 : S0.BroadcastsInDim X256 (![] : Fin 0 → Fin X256.rank)
  r256 : B256.BroadcastsInDim B256r (![1] : Fin 1 → Fin B256r.rank)
  rr256 : B256r.BroadcastsInDim X256 (![0, 1] : Fin 2 → Fin X256.rank)
  r128 : B128.BroadcastsInDim B128r (![1] : Fin 1 → Fin B128r.rank)
  rr128 : B128r.BroadcastsInDim X128 (![0, 1] : Fin 2 → Fin X128.rank)
  cast256 : B256.ShapeCasts B256r
  d1wf : ScatterDims.WF NN ERc ER [] [0] [0] 1
  g1wf : GatherDims.WF NN ERc ER [] [0] [] [0] [] 1 ![1]
  g128wf : GatherDims.WF X128 ERc U128 [1] [0] [] [0] [] 1 ![1, 128]
  s128wf : ScatterDims.WF X128 ERc U128 [1] [0] [0] 1
  g256wf : GatherDims.WF X256 ERc U256 [1] [0] [] [0] [] 1 ![1, 256]
  s256wf : ScatterDims.WF X256 ERc U256 [1] [0] [0] 1
  dAwf : DotDims.WF X128 Wa X256 [1] [0] [0] [1] [] []
  dBwf : DotDims.WF X256 Wb X128 [1] [0] [0] [1] [] []

theorem side : Side where
  sl0 := by decide
  sl1 := by decide
  sc := by decide
  bR := by decide
  bN := by decide
  col := by decide
  colN := by decide
  w128 := by decide
  w256 := by decide
  n128 := by decide
  n256 := by decide
  z128 := by decide
  z256 := by decide
  r256 := by decide
  rr256 := by decide
  r128 := by decide
  rr128 := by decide
  cast256 := by decide
  d1wf := by decide
  g1wf := by decide
  g128wf := by decide
  s128wf := by decide
  g256wf := by decide
  s256wf := by decide
  dAwf := by decide
  dBwf := by decide

section Net

variable (h : Side)

/-! ## The edge data -/

/-- The senders: row 0 of the edge list. -/
def srcOf (edge : IVec E2 32) : IVec ER 32 := shapeCast ER (extractStridedSlice E1 ![0, 0] edge h.sl0) h.sc
/-- The receivers: row 1 of the edge list. -/
def dstOf (edge : IVec E2 32) : IVec ER 32 := shapeCast ER (extractStridedSlice E1 ![1, 0] edge h.sl1) h.sc

/-- A row number wrapped once when negative (array indexing's reading of a negative index). -/
def wrap (v : IVec ER 32) : IVec ER 32 :=
  select (cmpi .slt v (broadcastInDim ER ![] h.bR (constantI S0 32 0#32)))
    (addi v (broadcastInDim ER ![] h.bR (constantI S0 32 50000#32))) v

/-- The count scatter's dimension numbers: single entries of a flat array. -/
def d1 : ScatterDims NN ERc ER where
  updateWindowDims := []
  insertedWindowDims := [0]
  scatterDimsToOperandDims := [0]
  indexVectorDim := 1
  wf := h.d1wf

/-- The node weights from the receivers `dst`: the inverse square root of one plus the number of edges received. -/
def dinvOf (dst : IVec ER 32) : FVec Ideal NN .f32 :=
  Host.rsqrt
    (addf
      (Host.scatterAdd (F := Ideal) (φ := .f32) (d1 h) (broadcastInDim NN ![] h.bN (constant (F := Ideal) S0 .f32 0x00000000#32))
        (broadcastInDim ERc ![0] h.col dst) (broadcastInDim ER ![] h.bR (constant (F := Ideal) S0 .f32 0x3F800000#32)))
      (broadcastInDim NN ![] h.bN (constant (F := Ideal) S0 .f32 0x3F800000#32)))

/-- The edge weights: the product of the two ends' node weights. -/
def normOf (dinv : FVec Ideal NN .f32) (src dst : IVec ER 32) : FVec Ideal ER .f32 :=
  mulf (Host.gather (entriesDims 50000 800000 h.g1wf) dinv (broadcastInDim ERc ![0] h.col (wrap h src)))
    (Host.gather (entriesDims 50000 800000 h.g1wf) dinv (broadcastInDim ERc ![0] h.col (wrap h dst)))

/-! ## The aggregation at the two widths, from the three pieces of edge data a program keeps: senders, receivers,
    node weights -/

def agg128 (src dst : IVec ER 32) (dinv : FVec Ideal NN .f32) (feat : FVec Ideal X128 .f32) : FVec Ideal X128 .f32 :=
  agg 50000 800000 128 h.s128wf h.g128wf h.z128 h.col h.w128 h.colN h.n128 (wrap h src) dst (normOf h dinv src dst)
    (mulf dinv dinv) feat

def agg256 (src dst : IVec ER 32) (dinv : FVec Ideal NN .f32) (feat : FVec Ideal X256 .f32) : FVec Ideal X256 .f32 :=
  agg 50000 800000 256 h.s256wf h.g256wf h.z256 h.col h.w256 h.colN h.n256 (wrap h src) dst (normOf h dinv src dst)
    (mulf dinv dinv) feat

/-! ## The layers' other pieces -/

def relu128 (x : FVec Ideal X128 .f32) : FVec Ideal X128 .f32 :=
  maximumf x (broadcastInDim X128 ![] h.z128 (constant (F := Ideal) S0 .f32 0x00000000#32))
def relu256 (x : FVec Ideal X256 .f32) : FVec Ideal X256 .f32 :=
  maximumf x (broadcastInDim X256 ![] h.z256 (constant (F := Ideal) S0 .f32 0x00000000#32))

/-- A bias vector repeated over the rows. -/
def rows128 (b : FVec Ideal B128 .f32) : FVec Ideal X128 .f32 :=
  broadcastInDim X128 ![0, 1] h.rr128 (broadcastInDim B128r ![1] h.r128 b)
def rows256 (b : FVec Ideal B256 .f32) : FVec Ideal X256 .f32 :=
  broadcastInDim X256 ![0, 1] h.rr256 (broadcastInDim B256r ![1] h.r256 b)

def dotA : DotDims X128 Wa X256 where
  lhsContracting := [1]
  rhsContracting := [0]
  lhsNonContracting := [0]
  rhsNonContracting := [1]
  lhsBatch := []
  rhsBatch := []
  wf := h.dAwf
def dotB : DotDims X256 Wb X128 where
  lhsContracting := [1]
  rhsContracting := [0]
  lhsNonContracting := [0]
  rhsNonContracting := [1]
  lhsBatch := []
  rhsBatch := []
  wf := h.dBwf

/-- The second layer after its matrix product, shared by the two networks: aggregate, add the bias, rectify. -/
def out2 (src dst : IVec ER 32) (dinv : FVec Ideal NN .f32) (b2 : FVec Ideal B128 .f32) (h2 : FVec Ideal X128 .f32) :
    FVec Ideal X128 .f32 :=
  relu128 h (addf (agg128 h src dst dinv h2) (rows128 h b2))

/-- The reference's hidden layer: product first, then the aggregation. -/
def refHid (src dst : IVec ER 32) (dinv : FVec Ideal NN .f32) (x : FVec Ideal X128 .f32) (w1 : FVec Ideal Wa .f32)
    (b1 : FVec Ideal B256 .f32) : FVec Ideal X256 .f32 :=
  relu256 h (addf (agg256 h src dst dinv (Host.dotGeneral (F := Ideal) (dotA h) none x w1)) (rows256 h b1))

/-- The kernel's hidden layer: the aggregation first, then product and bias. -/
def kerHid (src dst : IVec ER 32) (dinv : FVec Ideal NN .f32) (x : FVec Ideal X128 .f32) (w1 : FVec Ideal Wa .f32)
    (b1 : FVec Ideal B256 .f32) : FVec Ideal X256 .f32 :=
  relu256 h (denseBias (agg128 h src dst dinv x) w1 (shapeCast B256r b1 h.cast256))

/-- The reference network on one graph. -/
def refNet (edge : IVec E2 32) (x : FVec Ideal X128 .f32) (w1 : FVec Ideal Wa .f32) (b1 : FVec Ideal B256 .f32)
    (w2 : FVec Ideal Wb .f32) (b2 : FVec Ideal B128 .f32) : FVec Ideal X128 .f32 :=
  out2 h (srcOf h edge) (dstOf h edge) (dinvOf h (dstOf h edge)) b2
    (Host.dotGeneral (F := Ideal) (dotB h) none
      (refHid h (srcOf h edge) (dstOf h edge) (dinvOf h (dstOf h edge)) x w1 b1) w2)

/-- The kernel network on one graph. -/
def kerNet (edge : IVec E2 32) (x : FVec Ideal X128 .f32) (w1 : FVec Ideal Wa .f32) (b1 : FVec Ideal B256 .f32)
    (w2 : FVec Ideal Wb .f32) (b2 : FVec Ideal B128 .f32) : FVec Ideal X128 .f32 :=
  out2 h (srcOf h edge) (dstOf h edge) (dinvOf h (dstOf h edge)) b2
    (dense (kerHid h (srcOf h edge) (dstOf h edge) (dinvOf h (dstOf h edge)) x w1 b1) w2)

end Net

end Cert.Gcn

end
-- ==== Proof.StretchA.lean ====
/-
  The first graph's stretches of array operations between the matrix-product regions, each read as one function of the
  buffers it starts from, whatever they hold: the senders and receivers out of the edge list; the node weights (inverse
  square root of one plus the received-edge count); the aggregation of the 128 input features, which is what the first
  product region is fed; the bias laid out as a row; the rectification of the first product; the aggregation of the second
  product plus the second bias repeated over the rows; and its rectification. Each operation's result is its function of
  its operands' buffers; composing them along the stretch gives the stated term.
-/
import proofs.«107474_j21921513078817_2_alg».proof.Proof.Gen.KernelIdeal.Launch
import proofs.«107474_j21921513078817_2_alg».proof.Proof.Spec
import Idealize.ShloMosaic.Lib.StableHlo.Run

noncomputable section

open Cert.KernelIdeal Cert.KernelIdeal.Gen Idealize.ShloMosaic Idealize.ShloMosaic.TcCoe Idealize.SL.Sem
open Idealize.ShloMosaic.StableHlo

namespace Cert.Gcn.Stretch

variable (W : Valuation τ sig (Elt Ideal))

/-- The senders: row 0 of the edge list, flattened. -/
theorem a0_v1 : StableHlo.after hostOps0 W (Proc.devRef .tc main_v1)
    = srcOf side (W (Proc.devRef .tc main_arg1) : IVec E2 32) := by
  dsimp only [hostOps0]
  after_results_simp
  rfl

/-- The receivers: row 1 of the edge list, flattened. -/
theorem a0_v3 : StableHlo.after hostOps0 W (Proc.devRef .tc main_v3)
    = dstOf side (W (Proc.devRef .tc main_arg1) : IVec E2 32) := by
  dsimp only [hostOps0]
  after_results_simp
  rfl

/-- The node weights, from the receivers. -/
theorem a0_v10 : StableHlo.after hostOps0 W (Proc.devRef .tc main_v10)
    = dinvOf side (dstOf side (W (Proc.devRef .tc main_arg1) : IVec E2 32)) := by
  dsimp only [hostOps0]
  after_results_simp
  rfl

/-- The aggregated input features. -/
theorem a0_v43 : StableHlo.after hostOps0 W (Proc.devRef .tc main_v43)
    = agg128 side (srcOf side (W (Proc.devRef .tc main_arg1) : IVec E2 32))
        (dstOf side (W (Proc.devRef .tc main_arg1) : IVec E2 32))
        (dinvOf side (dstOf side (W (Proc.devRef .tc main_arg1) : IVec E2 32)))
        (W (Proc.devRef .tc main_arg0) : FVec Ideal X128 .f32) := by
  dsimp only [hostOps0]
  after_results_simp
  rfl

/-- The first bias laid out as one row. -/
theorem a0_v44 : StableHlo.after hostOps0 W (Proc.devRef .tc main_v44)
    = shapeCast B256r (W (Proc.devRef .tc main_arg5) : FVec Ideal B256 .f32) side.cast256 := by
  dsimp only [hostOps0]
  after_results_simp
  rfl

/-- The first product, rectified. -/
theorem a1_v46 : StableHlo.after hostOps1 W (Proc.devRef .tc main_v46)
    = relu256 side (W (Proc.devRef .tc main_v45) : FVec Ideal X256 .f32) := by
  dsimp only [hostOps1]
  after_results_simp
  rfl

/-- The second product aggregated, plus the second bias repeated over the rows. -/
theorem a2_v83 : StableHlo.after hostOps2 W (Proc.devRef .tc main_v83)
    = addf (agg128 side (W (Proc.devRef .tc main_v1) : IVec ER 32) (W (Proc.devRef .tc main_v3) : IVec ER 32)
          (W (Proc.devRef .tc main_v10) : FVec Ideal NN .f32) (W (Proc.devRef .tc main_v47) : FVec Ideal X128 .f32))
        (rows128 side (W (Proc.devRef .tc main_arg7) : FVec Ideal B128 .f32)) := by
  dsimp only [hostOps2]
  after_results_simp
  rfl

/-- The first graph's output, rectified. -/
theorem a21_v84 : StableHlo.after hostOps2_1 W (Proc.devRef .tc main_v84)
    = relu128 side (W (Proc.devRef .tc main_v83) : FVec Ideal X128 .f32) := by
  dsimp only [hostOps2_1]
  after_results_simp
  rfl

end Cert.Gcn.Stretch

end
-- ==== Proof.StretchB.lean ====
/-
  The second graph's stretches of array operations between the matrix-product regions, each read as one function of the
  buffers it starts from, whatever they hold: the senders and receivers out of the edge list; the node weights (inverse
  square root of one plus the received-edge count); the aggregation of the 128 input features, which is what the third
  product region is fed; the bias laid out as a row; the rectification of the third region's product; the aggregation of the fourth region's
  product plus the second bias repeated over the rows; and its rectification. Each operation's result is its function of
  its operands' buffers; composing them along the stretch gives the stated term.
-/
import proofs.«107474_j21921513078817_2_alg».proof.Proof.Gen.KernelIdeal.Launch
import proofs.«107474_j21921513078817_2_alg».proof.Proof.Spec
import Idealize.ShloMosaic.Lib.StableHlo.Run

noncomputable section

open Cert.KernelIdeal Cert.KernelIdeal.Gen Idealize.ShloMosaic Idealize.ShloMosaic.TcCoe Idealize.SL.Sem
open Idealize.ShloMosaic.StableHlo

namespace Cert.Gcn.Stretch

variable (W : Valuation τ sig (Elt Ideal))

/-- The senders: row 0 of the edge list, flattened. -/
theorem b22_v86 : StableHlo.after hostOps2_2 W (Proc.devRef .tc main_v86)
    = srcOf side (W (Proc.devRef .tc main_arg3) : IVec E2 32) := by
  dsimp only [hostOps2_2]
  after_results_simp
  rfl

/-- The receivers: row 1 of the edge list, flattened. -/
theorem b22_v88 : StableHlo.after hostOps2_2 W (Proc.devRef .tc main_v88)
    = dstOf side (W (Proc.devRef .tc main_arg3) : IVec E2 32) := by
  dsimp only [hostOps2_2]
  after_results_simp
  rfl

/-- The node weights, from the receivers. -/
theorem b22_v95 : StableHlo.after hostOps2_2 W (Proc.devRef .tc main_v95)
    = dinvOf side (dstOf side (W (Proc.devRef .tc main_arg3) : IVec E2 32)) := by
  dsimp only [hostOps2_2]
  after_results_simp
  rfl

/-- The aggregated input features. -/
theorem b22_v128 : StableHlo.after hostOps2_2 W (Proc.devRef .tc main_v128)
    = agg128 side (srcOf side (W (Proc.devRef .tc main_arg3) : IVec E2 32))
        (dstOf side (W (Proc.devRef .tc main_arg3) : IVec E2 32))
        (dinvOf side (dstOf side (W (Proc.devRef .tc main_arg3) : IVec E2 32)))
        (W (Proc.devRef .tc main_arg2) : FVec Ideal X128 .f32) := by
  dsimp only [hostOps2_2]
  after_results_simp
  rfl

/-- The first layer's bias laid out as one row. -/
theorem b22_v129 : StableHlo.after hostOps2_2 W (Proc.devRef .tc main_v129)
    = shapeCast B256r (W (Proc.devRef .tc main_arg5) : FVec Ideal B256 .f32) side.cast256 := by
  dsimp only [hostOps2_2]
  after_results_simp
  rfl

/-- The third region's product, rectified. -/
theorem b3_v131 : StableHlo.after hostOps3 W (Proc.devRef .tc main_v131)
    = relu256 side (W (Proc.devRef .tc main_v130) : FVec Ideal X256 .f32) := by
  dsimp only [hostOps3]
  after_results_simp
  rfl

/-- The fourth region's product aggregated, plus the second bias repeated over the rows. -/
theorem b4_v168 : StableHlo.after hostOps4 W (Proc.devRef .tc main_v168)
    = addf (agg128 side (W (Proc.devRef .tc main_v86) : IVec ER 32) (W (Proc.devRef .tc main_v88) : IVec ER 32)
          (W (Proc.devRef .tc main_v95) : FVec Ideal NN .f32) (W (Proc.devRef .tc main_v132) : FVec Ideal X128 .f32))
        (rows128 side (W (Proc.devRef .tc main_arg7) : FVec Ideal B128 .f32)) := by
  dsimp only [hostOps4]
  after_results_simp
  rfl

/-- The second graph's output, rectified. -/
theorem b41_v169 : StableHlo.after hostOps4_1 W (Proc.devRef .tc main_v169)
    = relu128 side (W (Proc.devRef .tc main_v168) : FVec Ideal X128 .f32) := by
  dsimp only [hostOps4_1]
  after_results_simp
  rfl

end Cert.Gcn.Stretch

end
-- ==== Proof.Region0.lean ====
/-
  A dense layer, whole. The region multiplies the node features by a weight matrix and adds a bias row, ten thousand rows
  of nodes at a time over five steps. Each step's block of the result is the same block of ONE array — entry (p, q) is
  row p of the features against column q of the weights, a sum over the feature axis, plus entry q of the bias row — and
  the five blocks of rows cover the result, so the result array is that function of the three arrays the region finds,
  whatever they are.
-/
import proofs.«107474_j21921513078817_2_alg».proof.Proof.Gen.KernelIdeal.Frame
import proofs.«107474_j21921513078817_2_alg».proof.Proof.Dense
import proofs.«107474_j21921513078817_2_alg».proof.Proof.LibPlainDot
import Idealize.ShloMosaic.Lib.Pipeline.Value
import Idealize.ShloMosaic.Lib.ValueLayout

noncomputable section

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

namespace Cert.Gcn.Regions.R0

variable (V : (c : Dev nD) → (b : Ref sig .tc) → Buf (Elt Ideal) ((c : Thread nD τ).loc b)) (c : Dev nD)

/-- The zero offsets of a whole-buffer access, as a constant function. -/
theorem zero_offsets : (![0, 0] : Fin 2 → Nat) = fun _ => 0 := funext fun a => by fin_cases a <;> rfl

/-- What the body stores, at row `p` and column `q` of its block: the row of the loaded features against the column of
    the loaded weights, plus the loaded bias row's entry. The format changes are the identity at the extended reals. -/
theorem pay_apply (x0 : Vec Ideal S10000x128 .f32) (x1 : Vec Ideal S128x256 .f32) (x2 : Vec Ideal S1x256 .f32)
    (p : Fin 10000) (q : Fin 256) :
    k0_pay1 (F := Ideal) x0 x1 x2 (ix2 p q) = (∑ k : Fin 128, x0 (ix2 p k) * x1 (ix2 k q)) + x2 (ix2 (0 : Fin 1) q) := by
  unfold k0_pay1
  rw [shapeCast_self, shapeCast_self]
  refine (addf_apply _ _ _).trans ?_
  simp only [matmul]
  rw [Cert.LibPlainDot.matmul_plain_apply dot_S10000x128_S128x256_S10000x256_1_0_0_1_n_n rfl rfl rfl rfl rfl rfl,
      broadcastTo_1b_ab_apply]
  rfl

/-- The printed index maps over the five grid points: the features and the result move one block of rows per point, the
    weights and the bias row stay where they are. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t` is rows `10000 t … 10000 t + 9999` of the features. -/
theorem iblk_feat (t : Fin cfg0.N) (p : Fin 10000) (k : Fin 128) (r : Fin 50000) (hr : r.val = t.val * 10000 + p.val) :
    (iblk0 V c 0 t : Vec Ideal S10000x128 .f32) (ix2 p k) = (V c main_v43 : S50000x128.Idx → EReal) (ix2 r k) := by
  obtain ⟨e0, e1, -⟩ := index_facts t
  unfold iblk0
  rw [View.read_apply]
  show V c main_v43 _ = V c main_v43 _
  congr 1
  funext a
  apply Fin.ext
  match a with
  | ⟨0, _⟩ => show win0_0.index t 0 * 10000 + 1 * p.val = r.val; rw [e0, hr]; omega
  | ⟨1, _⟩ => show win0_0.index t 1 * 128 + 1 * k.val = k.val; rw [e1]; omega

/-- The weights' block at every point is the weights. -/
theorem iblk_weights (t : Fin cfg0.N) : (iblk0 V c 1 t : Vec Ideal S128x256 .f32) = (V c main_arg4 : S128x256.Idx → EReal) := by
  obtain ⟨-, -, e2, e3, -⟩ := index_facts t
  funext y
  unfold iblk0
  rw [View.read_apply]
  show V c main_arg4 _ = V c main_arg4 _
  congr 1
  funext a
  apply Fin.ext
  match a with
  | ⟨0, _⟩ => show win0_1.index t 0 * 128 + 1 * (y 0).val = (y 0).val; rw [e2]; omega
  | ⟨1, _⟩ => show win0_1.index t 1 * 256 + 1 * (y 1).val = (y 1).val; rw [e3]; omega

/-- The bias row's block at every point is the bias row. -/
theorem iblk_bias (t : Fin cfg0.N) : (iblk0 V c 2 t : Vec Ideal S1x256 .f32) = (V c main_v44 : S1x256.Idx → EReal) := by
  obtain ⟨-, -, -, -, e4, e5, -⟩ := index_facts t
  funext y
  unfold iblk0
  rw [View.read_apply]
  show V c main_v44 _ = V c main_v44 _
  congr 1
  funext a
  apply Fin.ext
  match a with
  | ⟨0, _⟩ => show win0_2.index t 0 * 1 + 1 * (y 0).val = (y 0).val; rw [e4]; omega
  | ⟨1, _⟩ => show win0_2.index t 1 * 256 + 1 * (y 1).val = (y 1).val; rw [e5]; omega

/-- One block of the result against the whole product: when the loaded features are rows `10000 n …` of `A` and the
    loaded weights and bias row are `W` and `B`, the body's value at `y` is the product-plus-bias of `A`, `W`, `B` at the
    index `i` that lies `10000 n` rows below `y`. -/
theorem block_eq (A : S50000x128.Idx → EReal) (W : S128x256.Idx → EReal) (B : S1x256.Idx → EReal)
    (x0 : Vec Ideal S10000x128 .f32) (x1 : Vec Ideal S128x256 .f32) (x2 : Vec Ideal S1x256 .f32) (n : ℕ)
    (h0 : ∀ (p : Fin 10000) (k : Fin 128) (r : Fin 50000), r.val = n * 10000 + p.val → x0 (ix2 p k) = A (ix2 r k))
    (h1 : x1 = W) (h2 : x2 = B)
    (y : S10000x256.Idx) (i : S50000x256.Idx) (hi0 : (i 0).val = n * 10000 + (y 0).val) (hi1 : (i 1).val = (y 1).val) :
    k0_pay1 (F := Ideal) x0 x1 x2 y = Cert.Gcn.denseBias A W B i := by
  obtain ⟨p, q, rfl⟩ : ∃ (p : Fin 10000) (q : Fin 256), y = ix2 p q := ⟨y 0, y 1, eq_ix2 y⟩
  obtain ⟨r, s, rfl⟩ : ∃ (r : Fin 50000) (s : Fin 256), i = ix2 r s := ⟨i 0, i 1, eq_ix2 i⟩
  have hs : s = q := Fin.ext hi1
  subst hs
  rw [pay_apply, Cert.Gcn.denseBias_apply, h1, h2]
  exact congrArg (· + B (ix2 (0 : Fin 1) s)) (Finset.sum_congr rfl fun k _ => by rw [h0 p k r hi0])

/-- What point `t` writes back is block `t` of the whole product-plus-bias of the arrays the region finds. -/
theorem flushed_eq (t : Fin cfg0.N) :
    (dat0 V c).flushed 3 t = ((cfg0.win 3).blk t).view.read (Elt Ideal)
      (Cert.Gcn.denseBias (V c main_v43) (V c main_arg4) (V c main_v44)) := by
  show (cfg0.win 3).cut (grid0.coords t) ((dat0 V c).after 3 t) = _
  rw [after0_3]
  unfold out0_3
  rw [View.canon_unit_zero zero_offsets]
  simp only [View.ld_unit_zero (S := S10000x128) zero_offsets, View.ld_unit_zero (S := S128x256) zero_offsets,
    View.ld_unit_zero (S := S1x256) zero_offsets]
  obtain ⟨-, -, -, -, -, -, e6, e7⟩ := index_facts t
  funext j
  refine block_eq (V c main_v43) (V c main_arg4) (V c main_v44) (iblk0 V c 0 t) (iblk0 V c 1 t) (iblk0 V c 2 t) t.val
    (fun p k r hr => iblk_feat V c t p k r hr) (iblk_weights V c t) (iblk_bias V c t) j _ ?_ ?_
  · show win0_3.index t 0 * 10000 + 1 * (j 0).val = t.val * 10000 + (j 0).val; rw [e6]; omega
  · show win0_3.index t 1 * 256 + 1 * (j 1).val = (j 1).val; rw [e7]; omega

/-- An index of the result is in point `t`'s block iff each coordinate is in the block's range on its axis. -/
theorem mem_blk (t : Fin cfg0.N) (i : S50000x256.Idx) :
    i ∈ ((cfg0.win 3).blk t).view.set ↔ ∀ a : Fin 2, win0_3.index t a * S10000x256.size a ≤ (i a).val ∧ (i a).val < win0_3.index t a * S10000x256.size a + S10000x256.size a := by
  show i ∈ ((View.whole main_v45).slice (win0_3.rect t)).set ↔ _
  rw [View.set_slice_whole, Rect.mem_set_unit]
  exact Iff.rfl

/-- Every row of the result is in some point's block: row `r` in the block of point `r / 10000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hlt : (i 0).val / 10000 < grid0.N := by rw [N_0]; omega
  obtain ⟨-, -, -, -, -, -, e6, e7⟩ := index_facts ⟨(i 0).val / 10000, hlt⟩
  refine ⟨⟨(i 0).val / 10000, hlt⟩, flush0_3 _, ?_⟩
  rw [mem_blk]
  intro a
  match a with
  | ⟨0, _⟩ =>
    show win0_3.index ⟨(i 0).val / 10000, hlt⟩ 0 * 10000 ≤ (i 0).val ∧ (i 0).val < win0_3.index ⟨(i 0).val / 10000, hlt⟩ 0 * 10000 + 10000
    rw [e6]; show (i 0).val / 10000 * 10000 ≤ (i 0).val ∧ (i 0).val < (i 0).val / 10000 * 10000 + 10000; omega
  | ⟨1, _⟩ =>
    show win0_3.index ⟨(i 0).val / 10000, hlt⟩ 1 * 256 ≤ (i 1).val ∧ (i 1).val < win0_3.index ⟨(i 0).val / 10000, hlt⟩ 1 * 256 + 256
    rw [e7]; omega

end Cert.Gcn.Regions.R0

namespace Cert.Gcn.Regions

/-- The array the first region leaves in its result window is the whole product of the features it finds by the weights,
    plus the bias row, whatever the buffers hold when the region is entered. -/
theorem arr0 (V : (c : Dev nD) → (b : Ref sig .tc) → Buf (Elt Ideal) ((c : Thread nD τ).loc b)) (c : Dev nD) :
    (Cert.KernelIdeal.Gen.dat0 (F := Ideal) V c).arrAt 3 cfg0.N
      = Cert.Gcn.denseBias (V c main_v43) (V c main_arg4) (V c main_v44) :=
  (dat0 V c).arrAt_eq_of_cover 3 _ (fun t _ => R0.flushed_eq V c t) R0.cover

end Cert.Gcn.Regions

end
-- ==== Proof.Region1.lean ====
/-
  A dense layer without bias, whole. The region multiplies the node features by a weight matrix, ten thousand rows of
  nodes at a time over five steps. Each step's block of the result is the same block of ONE array — entry (p, q) is row p
  of the features against column q of the weights, a sum over the feature axis — and the five blocks of rows cover the
  result, so the result array is that function of the two arrays the region finds, whatever they are.
-/
import proofs.«107474_j21921513078817_2_alg».proof.Proof.Gen.KernelIdeal.Frame
import proofs.«107474_j21921513078817_2_alg».proof.Proof.Dense
import proofs.«107474_j21921513078817_2_alg».proof.Proof.LibPlainDot
import Idealize.ShloMosaic.Lib.Pipeline.Value
import Idealize.ShloMosaic.Lib.ValueLayout

noncomputable section

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

namespace Cert.Gcn.Regions.R1

variable (V : (c : Dev nD) → (b : Ref sig .tc) → Buf (Elt Ideal) ((c : Thread nD τ).loc b)) (c : Dev nD)

/-- The zero offsets of a whole-buffer access, as a constant function. -/
theorem zero_offsets : (![0, 0] : Fin 2 → Nat) = fun _ => 0 := funext fun a => by fin_cases a <;> rfl

/-- What the body stores, at row `p` and column `q` of its block: the row of the loaded features against the column of
    the loaded weights. The format changes are the identity at the extended reals. -/
theorem pay_apply (x0 : Vec Ideal S10000x256 .f32) (x1 : Vec Ideal S256x128 .f32) (p : Fin 10000) (q : Fin 128) :
    k1_pay1 (F := Ideal) x0 x1 (ix2 p q) = ∑ k : Fin 256, x0 (ix2 p k) * x1 (ix2 k q) := by
  unfold k1_pay1
  rw [shapeCast_self]
  simp only [matmul]
  rw [Cert.LibPlainDot.matmul_plain_apply dot_S10000x256_S256x128_S10000x128_1_0_0_1_n_n rfl rfl rfl rfl rfl rfl]
  rfl

/-- The printed index maps over the five grid points: the features and the result move one block of rows per point, the
    weights stay where they are. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The features' block at point `t` is rows `10000 t … 10000 t + 9999` of the features. -/
theorem iblk_feat (t : Fin cfg1.N) (p : Fin 10000) (k : Fin 256) (r : Fin 50000) (hr : r.val = t.val * 10000 + p.val) :
    (iblk1 V c 0 t : Vec Ideal S10000x256 .f32) (ix2 p k) = (V c main_v46 : S50000x256.Idx → EReal) (ix2 r k) := by
  obtain ⟨e0, e1, -⟩ := index_facts t
  unfold iblk1
  rw [View.read_apply]
  show V c main_v46 _ = V c main_v46 _
  congr 1
  funext a
  apply Fin.ext
  match a with
  | ⟨0, _⟩ => show win1_0.index t 0 * 10000 + 1 * p.val = r.val; rw [e0, hr]; omega
  | ⟨1, _⟩ => show win1_0.index t 1 * 256 + 1 * k.val = k.val; rw [e1]; omega

/-- The weights' block at every point is the weights. -/
theorem iblk_weights (t : Fin cfg1.N) : (iblk1 V c 1 t : Vec Ideal S256x128 .f32) = (V c main_arg6 : S256x128.Idx → EReal) := by
  obtain ⟨-, -, e2, e3, -⟩ := index_facts t
  funext y
  unfold iblk1
  rw [View.read_apply]
  show V c main_arg6 _ = V c main_arg6 _
  congr 1
  funext a
  apply Fin.ext
  match a with
  | ⟨0, _⟩ => show win1_1.index t 0 * 256 + 1 * (y 0).val = (y 0).val; rw [e2]; omega
  | ⟨1, _⟩ => show win1_1.index t 1 * 128 + 1 * (y 1).val = (y 1).val; rw [e3]; omega

/-- One block of the result against the whole product: when the loaded features are rows `10000 n …` of `A` and the
    loaded weights are `W`, the body's value at `y` is the product of `A` and `W` at the index `i` that lies `10000 n`
    rows below `y`. -/
theorem block_eq (A : S50000x256.Idx → EReal) (W : S256x128.Idx → EReal)
    (x0 : Vec Ideal S10000x256 .f32) (x1 : Vec Ideal S256x128 .f32) (n : ℕ)
    (h0 : ∀ (p : Fin 10000) (k : Fin 256) (r : Fin 50000), r.val = n * 10000 + p.val → x0 (ix2 p k) = A (ix2 r k))
    (h1 : x1 = W)
    (y : S10000x128.Idx) (i : S50000x128.Idx) (hi0 : (i 0).val = n * 10000 + (y 0).val) (hi1 : (i 1).val = (y 1).val) :
    k1_pay1 (F := Ideal) x0 x1 y = Cert.Gcn.dense A W i := by
  obtain ⟨p, q, rfl⟩ : ∃ (p : Fin 10000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay_apply, Cert.Gcn.dense_apply, h1]
  exact Finset.sum_congr rfl fun k _ => by rw [h0 p k r hi0]

/-- What point `t` writes back is block `t` of the whole product of the arrays the region finds. -/
theorem flushed_eq (t : Fin cfg1.N) :
    (dat1 V c).flushed 2 t = ((cfg1.win 2).blk t).view.read (Elt Ideal)
      (Cert.Gcn.dense (V c main_v46) (V c main_arg6)) := by
  show (cfg1.win 2).cut (grid1.coords t) ((dat1 V c).after 2 t) = _
  rw [after1_2]
  unfold out1_2
  rw [View.canon_unit_zero zero_offsets]
  simp only [View.ld_unit_zero (S := S10000x256) zero_offsets, View.ld_unit_zero (S := S256x128) zero_offsets]
  obtain ⟨-, -, -, -, e4, e5⟩ := index_facts t
  funext j
  refine block_eq (V c main_v46) (V c main_arg6) (iblk1 V c 0 t) (iblk1 V c 1 t) t.val
    (fun p k r hr => iblk_feat V c t p k r hr) (iblk_weights V c t) j _ ?_ ?_
  · show win1_2.index t 0 * 10000 + 1 * (j 0).val = t.val * 10000 + (j 0).val; rw [e4]; omega
  · show win1_2.index t 1 * 128 + 1 * (j 1).val = (j 1).val; rw [e5]; omega

/-- An index of the result is in point `t`'s block iff each coordinate is in the block's range on its axis. -/
theorem mem_blk (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Every row of the result is in some point's block: row `r` in the block of point `r / 10000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hlt : (i 0).val / 10000 < grid1.N := by rw [N_1]; omega
  obtain ⟨-, -, -, -, e4, e5⟩ := index_facts ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ 0 * 10000 ≤ (i 0).val ∧ (i 0).val < win1_2.index ⟨(i 0).val / 10000, hlt⟩ 0 * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ 1 * 128 ≤ (i 1).val ∧ (i 1).val < win1_2.index ⟨(i 0).val / 10000, hlt⟩ 1 * 128 + 128
    rw [e5]; omega

end Cert.Gcn.Regions.R1

namespace Cert.Gcn.Regions

/-- The array the second region leaves in its result window is the whole product of the features it finds by the weights,
    whatever the buffers hold when the region is entered. -/
theorem arr1 (V : (c : Dev nD) → (b : Ref sig .tc) → Buf (Elt Ideal) ((c : Thread nD τ).loc b)) (c : Dev nD) :
    (Cert.KernelIdeal.Gen.dat1 (F := Ideal) V c).arrAt 2 cfg1.N = Cert.Gcn.dense (V c main_v46) (V c main_arg6) :=
  (dat1 V c).arrAt_eq_of_cover 2 _ (fun t _ => R1.flushed_eq V c t) R1.cover

end Cert.Gcn.Regions

end
-- ==== Proof.Region2.lean ====
/-
  The second network's dense layer, whole. The region multiplies the node features by a weight matrix and adds a bias row, ten thousand rows
  of nodes at a time over five steps. Each step's block of the result is the same block of ONE array — entry (p, q) is
  row p of the features against column q of the weights, a sum over the feature axis, plus entry q of the bias row — and
  the five blocks of rows cover the result, so the result array is that function of the three arrays the region finds,
  whatever they are.
-/
import proofs.«107474_j21921513078817_2_alg».proof.Proof.Gen.KernelIdeal.Frame
import proofs.«107474_j21921513078817_2_alg».proof.Proof.Dense
import proofs.«107474_j21921513078817_2_alg».proof.Proof.LibPlainDot
import Idealize.ShloMosaic.Lib.Pipeline.Value
import Idealize.ShloMosaic.Lib.ValueLayout

noncomputable section

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

namespace Cert.Gcn.Regions.R2

variable (V : (c : Dev nD) → (b : Ref sig .tc) → Buf (Elt Ideal) ((c : Thread nD τ).loc b)) (c : Dev nD)

/-- The zero offsets of a whole-buffer access, as a constant function. -/
theorem zero_offsets : (![0, 0] : Fin 2 → Nat) = fun _ => 0 := funext fun a => by fin_cases a <;> rfl

/-- What the body stores, at row `p` and column `q` of its block: the row of the loaded features against the column of
    the loaded weights, plus the loaded bias row's entry. The format changes are the identity at the extended reals. -/
theorem pay_apply (x0 : Vec Ideal S10000x128 .f32) (x1 : Vec Ideal S128x256 .f32) (x2 : Vec Ideal S1x256 .f32)
    (p : Fin 10000) (q : Fin 256) :
    k2_pay1 (F := Ideal) x0 x1 x2 (ix2 p q) = (∑ k : Fin 128, x0 (ix2 p k) * x1 (ix2 k q)) + x2 (ix2 (0 : Fin 1) q) := by
  unfold k2_pay1
  rw [shapeCast_self, shapeCast_self]
  refine (addf_apply _ _ _).trans ?_
  simp only [matmul]
  rw [Cert.LibPlainDot.matmul_plain_apply dot_S10000x128_S128x256_S10000x256_1_0_0_1_n_n rfl rfl rfl rfl rfl rfl,
      broadcastTo_1b_ab_apply]
  rfl

/-- The printed index maps over the five grid points: the features and the result move one block of rows per point, the
    weights and the bias row stay where they are. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The features' block at point `t` is rows `10000 t … 10000 t + 9999` of the features. -/
theorem iblk_feat (t : Fin cfg2.N) (p : Fin 10000) (k : Fin 128) (r : Fin 50000) (hr : r.val = t.val * 10000 + p.val) :
    (iblk2 V c 0 t : Vec Ideal S10000x128 .f32) (ix2 p k) = (V c main_v128 : S50000x128.Idx → EReal) (ix2 r k) := by
  obtain ⟨e0, e1, -⟩ := index_facts t
  unfold iblk2
  rw [View.read_apply]
  show V c main_v128 _ = V c main_v128 _
  congr 1
  funext a
  apply Fin.ext
  match a with
  | ⟨0, _⟩ => show win2_0.index t 0 * 10000 + 1 * p.val = r.val; rw [e0, hr]; omega
  | ⟨1, _⟩ => show win2_0.index t 1 * 128 + 1 * k.val = k.val; rw [e1]; omega

/-- The weights' block at every point is the weights. -/
theorem iblk_weights (t : Fin cfg2.N) : (iblk2 V c 1 t : Vec Ideal S128x256 .f32) = (V c main_arg4 : S128x256.Idx → EReal) := by
  obtain ⟨-, -, e2, e3, -⟩ := index_facts t
  funext y
  unfold iblk2
  rw [View.read_apply]
  show V c main_arg4 _ = V c main_arg4 _
  congr 1
  funext a
  apply Fin.ext
  match a with
  | ⟨0, _⟩ => show win2_1.index t 0 * 128 + 1 * (y 0).val = (y 0).val; rw [e2]; omega
  | ⟨1, _⟩ => show win2_1.index t 1 * 256 + 1 * (y 1).val = (y 1).val; rw [e3]; omega

/-- The bias row's block at every point is the bias row. -/
theorem iblk_bias (t : Fin cfg2.N) : (iblk2 V c 2 t : Vec Ideal S1x256 .f32) = (V c main_v129 : S1x256.Idx → EReal) := by
  obtain ⟨-, -, -, -, e4, e5, -⟩ := index_facts t
  funext y
  unfold iblk2
  rw [View.read_apply]
  show V c main_v129 _ = V c main_v129 _
  congr 1
  funext a
  apply Fin.ext
  match a with
  | ⟨0, _⟩ => show win2_2.index t 0 * 1 + 1 * (y 0).val = (y 0).val; rw [e4]; omega
  | ⟨1, _⟩ => show win2_2.index t 1 * 256 + 1 * (y 1).val = (y 1).val; rw [e5]; omega

/-- One block of the result against the whole product: when the loaded features are rows `10000 n …` of `A` and the
    loaded weights and bias row are `W` and `B`, the body's value at `y` is the product-plus-bias of `A`, `W`, `B` at the
    index `i` that lies `10000 n` rows below `y`. -/
theorem block_eq (A : S50000x128.Idx → EReal) (W : S128x256.Idx → EReal) (B : S1x256.Idx → EReal)
    (x0 : Vec Ideal S10000x128 .f32) (x1 : Vec Ideal S128x256 .f32) (x2 : Vec Ideal S1x256 .f32) (n : ℕ)
    (h0 : ∀ (p : Fin 10000) (k : Fin 128) (r : Fin 50000), r.val = n * 10000 + p.val → x0 (ix2 p k) = A (ix2 r k))
    (h1 : x1 = W) (h2 : x2 = B)
    (y : S10000x256.Idx) (i : S50000x256.Idx) (hi0 : (i 0).val = n * 10000 + (y 0).val) (hi1 : (i 1).val = (y 1).val) :
    k2_pay1 (F := Ideal) x0 x1 x2 y = Cert.Gcn.denseBias A W B i := by
  obtain ⟨p, q, rfl⟩ : ∃ (p : Fin 10000) (q : Fin 256), y = ix2 p q := ⟨y 0, y 1, eq_ix2 y⟩
  obtain ⟨r, s, rfl⟩ : ∃ (r : Fin 50000) (s : Fin 256), i = ix2 r s := ⟨i 0, i 1, eq_ix2 i⟩
  have hs : s = q := Fin.ext hi1
  subst hs
  rw [pay_apply, Cert.Gcn.denseBias_apply, h1, h2]
  exact congrArg (· + B (ix2 (0 : Fin 1) s)) (Finset.sum_congr rfl fun k _ => by rw [h0 p k r hi0])

/-- What point `t` writes back is block `t` of the whole product-plus-bias of the arrays the region finds. -/
theorem flushed_eq (t : Fin cfg2.N) :
    (dat2 V c).flushed 3 t = ((cfg2.win 3).blk t).view.read (Elt Ideal)
      (Cert.Gcn.denseBias (V c main_v128) (V c main_arg4) (V c main_v129)) := by
  show (cfg2.win 3).cut (grid2.coords t) ((dat2 V c).after 3 t) = _
  rw [after2_3]
  unfold out2_3
  rw [View.canon_unit_zero zero_offsets]
  simp only [View.ld_unit_zero (S := S10000x128) zero_offsets, View.ld_unit_zero (S := S128x256) zero_offsets,
    View.ld_unit_zero (S := S1x256) zero_offsets]
  obtain ⟨-, -, -, -, -, -, e6, e7⟩ := index_facts t
  funext j
  refine block_eq (V c main_v128) (V c main_arg4) (V c main_v129) (iblk2 V c 0 t) (iblk2 V c 1 t) (iblk2 V c 2 t) t.val
    (fun p k r hr => iblk_feat V c t p k r hr) (iblk_weights V c t) (iblk_bias V c t) j _ ?_ ?_
  · show win2_3.index t 0 * 10000 + 1 * (j 0).val = t.val * 10000 + (j 0).val; rw [e6]; omega
  · show win2_3.index t 1 * 256 + 1 * (j 1).val = (j 1).val; rw [e7]; omega

/-- An index of the result is in point `t`'s block iff each coordinate is in the block's range on its axis. -/
theorem mem_blk (t : Fin cfg2.N) (i : S50000x256.Idx) :
    i ∈ ((cfg2.win 3).blk t).view.set ↔ ∀ a : Fin 2, win2_3.index t a * S10000x256.size a ≤ (i a).val ∧ (i a).val < win2_3.index t a * S10000x256.size a + S10000x256.size a := by
  show i ∈ ((View.whole main_v130).slice (win2_3.rect t)).set ↔ _
  rw [View.set_slice_whole, Rect.mem_set_unit]
  exact Iff.rfl

/-- Every row of the result is in some point's block: row `r` in the block of point `r / 10000`. -/
theorem cover (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  have hlt : (i 0).val / 10000 < grid2.N := by rw [N_2]; omega
  obtain ⟨-, -, -, -, -, -, e6, e7⟩ := index_facts ⟨(i 0).val / 10000, hlt⟩
  refine ⟨⟨(i 0).val / 10000, hlt⟩, flush2_3 _, ?_⟩
  rw [mem_blk]
  intro a
  match a with
  | ⟨0, _⟩ =>
    show win2_3.index ⟨(i 0).val / 10000, hlt⟩ 0 * 10000 ≤ (i 0).val ∧ (i 0).val < win2_3.index ⟨(i 0).val / 10000, hlt⟩ 0 * 10000 + 10000
    rw [e6]; show (i 0).val / 10000 * 10000 ≤ (i 0).val ∧ (i 0).val < (i 0).val / 10000 * 10000 + 10000; omega
  | ⟨1, _⟩ =>
    show win2_3.index ⟨(i 0).val / 10000, hlt⟩ 1 * 256 ≤ (i 1).val ∧ (i 1).val < win2_3.index ⟨(i 0).val / 10000, hlt⟩ 1 * 256 + 256
    rw [e7]; omega

end Cert.Gcn.Regions.R2

namespace Cert.Gcn.Regions

/-- The array the third region leaves in its result window is the whole product of the features it finds by the weights,
    plus the bias row, whatever the buffers hold when the region is entered. -/
theorem arr2 (V : (c : Dev nD) → (b : Ref sig .tc) → Buf (Elt Ideal) ((c : Thread nD τ).loc b)) (c : Dev nD) :
    (Cert.KernelIdeal.Gen.dat2 (F := Ideal) V c).arrAt 3 cfg2.N
      = Cert.Gcn.denseBias (V c main_v128) (V c main_arg4) (V c main_v129) :=
  (dat2 V c).arrAt_eq_of_cover 3 _ (fun t _ => R2.flushed_eq V c t) R2.cover

end Cert.Gcn.Regions

end
-- ==== Proof.Region3.lean ====
/-
  The second network's dense layer without bias, whole. The region multiplies the node features by a weight matrix, ten thousand rows of
  nodes at a time over five steps. Each step's block of the result is the same block of ONE array — entry (p, q) is row p
  of the features against column q of the weights, a sum over the feature axis — and the five blocks of rows cover the
  result, so the result array is that function of the two arrays the region finds, whatever they are.
-/
import proofs.«107474_j21921513078817_2_alg».proof.Proof.Gen.KernelIdeal.Frame
import proofs.«107474_j21921513078817_2_alg».proof.Proof.Dense
import proofs.«107474_j21921513078817_2_alg».proof.Proof.LibPlainDot
import Idealize.ShloMosaic.Lib.Pipeline.Value
import Idealize.ShloMosaic.Lib.ValueLayout

noncomputable section

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

namespace Cert.Gcn.Regions.R3

variable (V : (c : Dev nD) → (b : Ref sig .tc) → Buf (Elt Ideal) ((c : Thread nD τ).loc b)) (c : Dev nD)

/-- The zero offsets of a whole-buffer access, as a constant function. -/
theorem zero_offsets : (![0, 0] : Fin 2 → Nat) = fun _ => 0 := funext fun a => by fin_cases a <;> rfl

/-- What the body stores, at row `p` and column `q` of its block: the row of the loaded features against the column of
    the loaded weights. The format changes are the identity at the extended reals. -/
theorem pay_apply (x0 : Vec Ideal S10000x256 .f32) (x1 : Vec Ideal S256x128 .f32) (p : Fin 10000) (q : Fin 128) :
    k3_pay1 (F := Ideal) x0 x1 (ix2 p q) = ∑ k : Fin 256, x0 (ix2 p k) * x1 (ix2 k q) := by
  unfold k3_pay1
  rw [shapeCast_self]
  simp only [matmul]
  rw [Cert.LibPlainDot.matmul_plain_apply dot_S10000x256_S256x128_S10000x128_1_0_0_1_n_n rfl rfl rfl rfl rfl rfl]
  rfl

/-- The printed index maps over the five grid points: the features and the result move one block of rows per point, the
    weights stay where they are. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The features' block at point `t` is rows `10000 t … 10000 t + 9999` of the features. -/
theorem iblk_feat (t : Fin cfg3.N) (p : Fin 10000) (k : Fin 256) (r : Fin 50000) (hr : r.val = t.val * 10000 + p.val) :
    (iblk3 V c 0 t : Vec Ideal S10000x256 .f32) (ix2 p k) = (V c main_v131 : S50000x256.Idx → EReal) (ix2 r k) := by
  obtain ⟨e0, e1, -⟩ := index_facts t
  unfold iblk3
  rw [View.read_apply]
  show V c main_v131 _ = V c main_v131 _
  congr 1
  funext a
  apply Fin.ext
  match a with
  | ⟨0, _⟩ => show win3_0.index t 0 * 10000 + 1 * p.val = r.val; rw [e0, hr]; omega
  | ⟨1, _⟩ => show win3_0.index t 1 * 256 + 1 * k.val = k.val; rw [e1]; omega

/-- The weights' block at every point is the weights. -/
theorem iblk_weights (t : Fin cfg3.N) : (iblk3 V c 1 t : Vec Ideal S256x128 .f32) = (V c main_arg6 : S256x128.Idx → EReal) := by
  obtain ⟨-, -, e2, e3, -⟩ := index_facts t
  funext y
  unfold iblk3
  rw [View.read_apply]
  show V c main_arg6 _ = V c main_arg6 _
  congr 1
  funext a
  apply Fin.ext
  match a with
  | ⟨0, _⟩ => show win3_1.index t 0 * 256 + 1 * (y 0).val = (y 0).val; rw [e2]; omega
  | ⟨1, _⟩ => show win3_1.index t 1 * 128 + 1 * (y 1).val = (y 1).val; rw [e3]; omega

/-- One block of the result against the whole product: when the loaded features are rows `10000 n …` of `A` and the
    loaded weights are `W`, the body's value at `y` is the product of `A` and `W` at the index `i` that lies `10000 n`
    rows below `y`. -/
theorem block_eq (A : S50000x256.Idx → EReal) (W : S256x128.Idx → EReal)
    (x0 : Vec Ideal S10000x256 .f32) (x1 : Vec Ideal S256x128 .f32) (n : ℕ)
    (h0 : ∀ (p : Fin 10000) (k : Fin 256) (r : Fin 50000), r.val = n * 10000 + p.val → x0 (ix2 p k) = A (ix2 r k))
    (h1 : x1 = W)
    (y : S10000x128.Idx) (i : S50000x128.Idx) (hi0 : (i 0).val = n * 10000 + (y 0).val) (hi1 : (i 1).val = (y 1).val) :
    k3_pay1 (F := Ideal) x0 x1 y = Cert.Gcn.dense A W i := by
  obtain ⟨p, q, rfl⟩ : ∃ (p : Fin 10000) (q : Fin 128), y = ix2 p q := ⟨y 0, y 1, eq_ix2 y⟩
  obtain ⟨r, s, rfl⟩ : ∃ (r : Fin 50000) (s : Fin 128), i = ix2 r s := ⟨i 0, i 1, eq_ix2 i⟩
  have hs : s = q := Fin.ext hi1
  subst hs
  rw [pay_apply, Cert.Gcn.dense_apply, h1]
  exact Finset.sum_congr rfl fun k _ => by rw [h0 p k r hi0]

/-- What point `t` writes back is block `t` of the whole product of the arrays the region finds. -/
theorem flushed_eq (t : Fin cfg3.N) :
    (dat3 V c).flushed 2 t = ((cfg3.win 2).blk t).view.read (Elt Ideal)
      (Cert.Gcn.dense (V c main_v131) (V c main_arg6)) := by
  show (cfg3.win 2).cut (grid3.coords t) ((dat3 V c).after 2 t) = _
  rw [after3_2]
  unfold out3_2
  rw [View.canon_unit_zero zero_offsets]
  simp only [View.ld_unit_zero (S := S10000x256) zero_offsets, View.ld_unit_zero (S := S256x128) zero_offsets]
  obtain ⟨-, -, -, -, e4, e5⟩ := index_facts t
  funext j
  refine block_eq (V c main_v131) (V c main_arg6) (iblk3 V c 0 t) (iblk3 V c 1 t) t.val
    (fun p k r hr => iblk_feat V c t p k r hr) (iblk_weights V c t) j _ ?_ ?_
  · show win3_2.index t 0 * 10000 + 1 * (j 0).val = t.val * 10000 + (j 0).val; rw [e4]; omega
  · show win3_2.index t 1 * 128 + 1 * (j 1).val = (j 1).val; rw [e5]; omega

/-- An index of the result is in point `t`'s block iff each coordinate is in the block's range on its axis. -/
theorem mem_blk (t : Fin cfg3.N) (i : S50000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v132).slice (win3_2.rect t)).set ↔ _
  rw [View.set_slice_whole, Rect.mem_set_unit]
  exact Iff.rfl

/-- Every row of the result is in some point's block: row `r` in the block of point `r / 10000`. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  have hlt : (i 0).val / 10000 < grid3.N := by rw [N_3]; omega
  obtain ⟨-, -, -, -, e4, e5⟩ := index_facts ⟨(i 0).val / 10000, hlt⟩
  refine ⟨⟨(i 0).val / 10000, hlt⟩, flush3_2 _, ?_⟩
  rw [mem_blk]
  intro a
  match a with
  | ⟨0, _⟩ =>
    show win3_2.index ⟨(i 0).val / 10000, hlt⟩ 0 * 10000 ≤ (i 0).val ∧ (i 0).val < win3_2.index ⟨(i 0).val / 10000, hlt⟩ 0 * 10000 + 10000
    rw [e4]; show (i 0).val / 10000 * 10000 ≤ (i 0).val ∧ (i 0).val < (i 0).val / 10000 * 10000 + 10000; omega
  | ⟨1, _⟩ =>
    show win3_2.index ⟨(i 0).val / 10000, hlt⟩ 1 * 128 ≤ (i 1).val ∧ (i 1).val < win3_2.index ⟨(i 0).val / 10000, hlt⟩ 1 * 128 + 128
    rw [e5]; omega

end Cert.Gcn.Regions.R3

namespace Cert.Gcn.Regions

/-- The array the fourth region leaves in its result window is the whole product of the features it finds by the weights,
    whatever the buffers hold when the region is entered. -/
theorem arr3 (V : (c : Dev nD) → (b : Ref sig .tc) → Buf (Elt Ideal) ((c : Thread nD τ).loc b)) (c : Dev nD) :
    (Cert.KernelIdeal.Gen.dat3 (F := Ideal) V c).arrAt 2 cfg3.N = Cert.Gcn.dense (V c main_v131) (V c main_arg6) :=
  (dat3 V c).arrAt_eq_of_cover 2 _ (fun t _ => R3.flushed_eq V c t) R3.cover

end Cert.Gcn.Regions

end
-- ==== Proof.KernelValue.lean ====
/-
  What the kernel program's two result buffers hold when it ends: the kernel network of Spec.lean on each graph.

  The program is a chain of host stretches and four row-blocked matrix-product regions. Reading it from the launch
  memory: the first stretch computes the edge data and the aggregated input features; region 0 multiplies by W1 and adds
  the bias row (one whole-array function, whatever the row blocks); a stretch rectifies; region 1 multiplies by W2; a
  stretch aggregates, adds the second bias and rectifies. The second graph repeats this from the contents the first
  graph's part leaves, which keep every argument array. Buffers a stretch or a region does not write keep their contents.
-/
import proofs.«107474_j21921513078817_2_alg».proof.Proof.Pass
import proofs.«107474_j21921513078817_2_alg».proof.Proof.StretchA
import proofs.«107474_j21921513078817_2_alg».proof.Proof.StretchB
import proofs.«107474_j21921513078817_2_alg».proof.Proof.Region0
import proofs.«107474_j21921513078817_2_alg».proof.Proof.Region1
import proofs.«107474_j21921513078817_2_alg».proof.Proof.Region2
import proofs.«107474_j21921513078817_2_alg».proof.Proof.Region3

noncomputable section

namespace Cert.Gcn.KernelValue

open Idealize.ShloMosaic Idealize.ShloMosaic.TcCoe Idealize.SL.Sem
open Cert.KernelIdeal Cert.KernelIdeal.Gen Cert.Gcn Cert.Gcn.Stretch Cert.Gcn.Regions

variable (m : (ℓ : Loc nD τ sig) → Buf (Elt Ideal) ℓ) (ρ : Dev nD → PrngReg) (c : Dev nD)

/-- The first graph's result. -/
theorem out0 : W12 m ρ c (Proc.devRef .tc main_v84)
    = kerNet side (m ((c : Thread nD τ).loc main_arg1)) (m ((c : Thread nD τ).loc main_arg0)) (m ((c : Thread nD τ).loc main_arg4)) (m ((c : Thread nD τ).loc main_arg5)) (m ((c : Thread nD τ).loc main_arg6)) (m ((c : Thread nD τ).loc main_arg7)) := by
  have e1 : W1 m ρ c (Proc.devRef .tc main_v1) = srcOf side (m ((c : Thread nD τ).loc main_arg1)) := a0_v1 (W0 m ρ c)
  have e3 : W1 m ρ c (Proc.devRef .tc main_v3) = dstOf side (m ((c : Thread nD τ).loc main_arg1)) := a0_v3 (W0 m ρ c)
  have e10 : W1 m ρ c (Proc.devRef .tc main_v10) = dinvOf side (dstOf side (m ((c : Thread nD τ).loc main_arg1))) := a0_v10 (W0 m ρ c)
  have e43 : V1 m ρ c main_v43 = agg128 side (srcOf side (m ((c : Thread nD τ).loc main_arg1))) (dstOf side (m ((c : Thread nD τ).loc main_arg1)))
      (dinvOf side (dstOf side (m ((c : Thread nD τ).loc main_arg1)))) (m ((c : Thread nD τ).loc main_arg0)) := a0_v43 (W0 m ρ c)
  have e44 : V1 m ρ c main_v44 = shapeCast B256r (m ((c : Thread nD τ).loc main_arg5)) side.cast256 := a0_v44 (W0 m ρ c)
  have e4 : V1 m ρ c main_arg4 = m ((c : Thread nD τ).loc main_arg4) := Pass.W1_arg4 m ρ c
  have e45 : W2 m ρ c (Proc.devRef .tc main_v45) = denseBias (V1 m ρ c main_v43) (V1 m ρ c main_arg4) (V1 m ρ c main_v44) :=
    (W2_arr m ρ c 3).trans (arr0 (V1 m ρ) c)
  have e46 : V3 m ρ c main_v46 = relu256 side (W2 m ρ c (Proc.devRef .tc main_v45)) := a1_v46 (W2 m ρ c)
  have e6 : V3 m ρ c main_arg6 = m ((c : Thread nD τ).loc main_arg6) := Pass.W3_arg6 m ρ c
  have e47 : W4 m ρ c (Proc.devRef .tc main_v47) = dense (V3 m ρ c main_v46) (V3 m ρ c main_arg6) :=
    (W4_arr m ρ c 2).trans (arr1 (V3 m ρ) c)
  have e83 : W5 m ρ c (Proc.devRef .tc main_v83) = addf (agg128 side (W4 m ρ c (Proc.devRef .tc main_v1)) (W4 m ρ c (Proc.devRef .tc main_v3))
      (W4 m ρ c (Proc.devRef .tc main_v10)) (W4 m ρ c (Proc.devRef .tc main_v47))) (rows128 side (W4 m ρ c (Proc.devRef .tc main_arg7))) := a2_v83 (W4 m ρ c)
  have e84 : W6 m ρ c (Proc.devRef .tc main_v84) = relu128 side (W5 m ρ c (Proc.devRef .tc main_v83)) := a21_v84 (W5 m ρ c)
  rw [Pass.W12_v84, e84, e83, Pass.W4_v1, Pass.W4_v3, Pass.W4_v10, Pass.W4_arg7, e1, e3, e10, e47, e46, e6, e45, e43, e4, e44]
  rfl

/-- The second graph's result. -/
theorem out1 : W12 m ρ c (Proc.devRef .tc main_v169)
    = kerNet side (m ((c : Thread nD τ).loc main_arg3)) (m ((c : Thread nD τ).loc main_arg2)) (m ((c : Thread nD τ).loc main_arg4)) (m ((c : Thread nD τ).loc main_arg5)) (m ((c : Thread nD τ).loc main_arg6)) (m ((c : Thread nD τ).loc main_arg7)) := by
  have a3 := Pass.W6_arg3 m ρ c
  have a2 := Pass.W6_arg2 m ρ c
  have a5 := Pass.W6_arg5 m ρ c
  have e86 : W7 m ρ c (Proc.devRef .tc main_v86) = srcOf side (W6 m ρ c (Proc.devRef .tc main_arg3)) := b22_v86 (W6 m ρ c)
  have e88 : W7 m ρ c (Proc.devRef .tc main_v88) = dstOf side (W6 m ρ c (Proc.devRef .tc main_arg3)) := b22_v88 (W6 m ρ c)
  have e95 : W7 m ρ c (Proc.devRef .tc main_v95) = dinvOf side (dstOf side (W6 m ρ c (Proc.devRef .tc main_arg3))) := b22_v95 (W6 m ρ c)
  have e128 : V7 m ρ c main_v128 = agg128 side (srcOf side (W6 m ρ c (Proc.devRef .tc main_arg3))) (dstOf side (W6 m ρ c (Proc.devRef .tc main_arg3)))
      (dinvOf side (dstOf side (W6 m ρ c (Proc.devRef .tc main_arg3)))) (W6 m ρ c (Proc.devRef .tc main_arg2)) := b22_v128 (W6 m ρ c)
  have e129 : V7 m ρ c main_v129 = shapeCast B256r (W6 m ρ c (Proc.devRef .tc main_arg5)) side.cast256 := b22_v129 (W6 m ρ c)
  have e4 : V7 m ρ c main_arg4 = m ((c : Thread nD τ).loc main_arg4) := Pass.W7_arg4 m ρ c
  have e130 : W8 m ρ c (Proc.devRef .tc main_v130) = denseBias (V7 m ρ c main_v128) (V7 m ρ c main_arg4) (V7 m ρ c main_v129) :=
    (W8_arr m ρ c 3).trans (arr2 (V7 m ρ) c)
  have e131 : V9 m ρ c main_v131 = relu256 side (W8 m ρ c (Proc.devRef .tc main_v130)) := b3_v131 (W8 m ρ c)
  have e6 : V9 m ρ c main_arg6 = m ((c : Thread nD τ).loc main_arg6) := Pass.W9_arg6 m ρ c
  have e132 : W10 m ρ c (Proc.devRef .tc main_v132) = dense (V9 m ρ c main_v131) (V9 m ρ c main_arg6) :=
    (W10_arr m ρ c 2).trans (arr3 (V9 m ρ) c)
  have e168 : W11 m ρ c (Proc.devRef .tc main_v168) = addf (agg128 side (W10 m ρ c (Proc.devRef .tc main_v86)) (W10 m ρ c (Proc.devRef .tc main_v88))
      (W10 m ρ c (Proc.devRef .tc main_v95)) (W10 m ρ c (Proc.devRef .tc main_v132))) (rows128 side (W10 m ρ c (Proc.devRef .tc main_arg7))) := b4_v168 (W10 m ρ c)
  have e169 : W12 m ρ c (Proc.devRef .tc main_v169) = relu128 side (W11 m ρ c (Proc.devRef .tc main_v168)) := b41_v169 (W11 m ρ c)
  rw [e169, e168, Pass.W10_v86, Pass.W10_v88, Pass.W10_v95, Pass.W10_arg7, e86, e88, e95, e132, e131, e6, e130, e128, e4, e129,
    a3, a2, a5]
  rfl

end Cert.Gcn.KernelValue

end
-- ==== Proof.RefValue.lean ====
/-
  The reference program's two results are the reference network of the specification, one graph each.

  The reference program's run names each result as a closed term of the launch memory: the composition of its host
  operations. The specification's reference network is written in the same operations in the same order — senders and
  receivers as rows 0 and 1 of the edge list, the node weights as the inverse square root of one plus the received
  count, an edge's weight as the product of its ends' weights at wrapped row numbers, and per layer the matrix product,
  the aggregation, the bias and the rectification — over dimension-number records with the same fields. So, once the
  network's definitions are opened, the two sides are the same term, and the equation holds by that identity. The first
  result is the network on the first graph (edge list argument 1, features argument 0), the second on the second graph
  (edge list argument 3, features argument 2); both share the two weight matrices and the two biases (arguments 4–7).
-/
import proofs.«107474_j21921513078817_2_alg».proof.Proof.Gen.ReferenceIdeal.Run
import proofs.«107474_j21921513078817_2_alg».proof.Proof.Spec

noncomputable section

namespace Cert.Gcn.RefValue

open Idealize.ShloMosaic Idealize.SL.Sem
open Cert.ReferenceIdeal

set_option maxRecDepth 8192 in
/-- The first result: the reference network on the first graph. -/
theorem res0 (m : (ℓ : Loc nD τ sig) → Buf (Elt Ideal) ℓ) (c : Dev nD) :
    Cert.ReferenceIdeal.Value.res_main_v93 (F := Ideal) m c
      = Cert.Gcn.refNet Cert.Gcn.side (m ((c.tc : Thread nD τ).loc main_arg1)) (m ((c.tc : Thread nD τ).loc main_arg0)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v93
  unfold Cert.Gcn.refNet Cert.Gcn.out2 Cert.Gcn.refHid Cert.Gcn.agg128 Cert.Gcn.agg256 Cert.Gcn.agg
    Cert.Gcn.relu128 Cert.Gcn.relu256 Cert.Gcn.rows128 Cert.Gcn.rows256 Cert.Gcn.normOf Cert.Gcn.dinvOf
    Cert.Gcn.wrap Cert.Gcn.srcOf Cert.Gcn.dstOf
  rfl

set_option maxRecDepth 8192 in
/-- The second result: the reference network on the second graph, with the same weights and biases. -/
theorem res1 (m : (ℓ : Loc nD τ sig) → Buf (Elt Ideal) ℓ) (c : Dev nD) :
    Cert.ReferenceIdeal.Value.res_main_v187 (F := Ideal) m c
      = Cert.Gcn.refNet Cert.Gcn.side (m ((c.tc : Thread nD τ).loc main_arg3)) (m ((c.tc : Thread nD τ).loc main_arg2)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v187
  unfold Cert.Gcn.refNet Cert.Gcn.out2 Cert.Gcn.refHid Cert.Gcn.agg128 Cert.Gcn.agg256 Cert.Gcn.agg
    Cert.Gcn.relu128 Cert.Gcn.relu256 Cert.Gcn.rows128 Cert.Gcn.rows256 Cert.Gcn.normOf Cert.Gcn.dinvOf
    Cert.Gcn.wrap Cert.Gcn.srcOf Cert.Gcn.dstOf
  rfl

end Cert.Gcn.RefValue

end
-- ==== Proof.LibLinearAgg.lean ====
/-
  A weighted row aggregation commutes with a matrix product, on real entries.

  Fix a node, the finite set E of edges it receives, each edge's sender row xs e, the node's own row xp, an edge weight
  n e and a node weight d. Aggregating first and multiplying by a weight column w afterwards,
      sum over k of ((z + sum over e in E of xs e k * n e) + xp k * d) * w k,
  is multiplying first and aggregating afterwards,
      (z + sum over e in E of (sum over k of xs e k * w k) * n e) + (sum over k of xp k * w k) * d,
  when z is zero and every entry is a real number: on the reals this is distributivity and an exchange of two finite
  sums. (On the extended reals distributivity fails at infinities, which is why the entries are asked to be real.)
-/
import Mathlib.Data.EReal.Operations
import Mathlib.Algebra.BigOperators.Ring.Finset
import Mathlib.Algebra.BigOperators.Group.Finset.Sigma
import Mathlib.Tactic.Ring

noncomputable section

namespace Cert.LibLinearAgg

open scoped BigOperators

/-- The inclusion of the reals in the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exchange on the reals. -/
theorem agg_then_dot_real {R K : ℕ} (E : Finset (Fin R)) (xs : Fin R → Fin K → ℝ) (xp w : Fin K → ℝ) (n : Fin R → ℝ) (d : ℝ) :
    ∑ k, ((∑ e ∈ E, xs e k * n e) + xp k * d) * w k
      = (∑ e ∈ E, (∑ k, xs e k * w k) * n e) + (∑ k, xp k * w k) * d := by
  have h1 : ∑ k, (∑ e ∈ E, xs e k * n e) * w k = ∑ e ∈ E, (∑ k, xs e k * w k) * n e := by
    simp only [Finset.sum_mul]
    rw [Finset.sum_comm]
    exact Finset.sum_congr rfl fun e _ => Finset.sum_congr rfl fun k _ => by ring
  have h2 : ∑ k, (xp k * d) * w k = (∑ k, xp k * w k) * d := by
    rw [Finset.sum_mul]
    exact Finset.sum_congr rfl fun k _ => by ring
  simp only [add_mul, Finset.sum_add_distrib, h1, h2]

/-- THE EXCHANGE ON THE EXTENDED REALS, for real entries and a zero start. -/
theorem agg_then_dot {R K : ℕ} (E : Finset (Fin R)) (xs : Fin R → Fin K → EReal) (xp w : Fin K → EReal)
    (n : Fin R → EReal) (d z : EReal) (hz : z = 0)
    (hxs : ∀ e k, ∃ r : ℝ, xs e k = (r : EReal)) (hxp : ∀ k, ∃ r : ℝ, xp k = (r : EReal))
    (hw : ∀ k, ∃ r : ℝ, w k = (r : EReal)) (hn : ∀ e, ∃ r : ℝ, n e = (r : EReal)) (hd : ∃ r : ℝ, d = (r : EReal)) :
    ∑ k, ((z + ∑ e ∈ E, xs e k * n e) + xp k * d) * w k
      = (z + ∑ e ∈ E, (∑ k, xs e k * w k) * n e) + (∑ k, xp k * w k) * d := by
  choose xsr hxsr using hxs
  choose xpr hxpr using hxp
  choose wr hwr using hw
  choose nr hnr using hn
  obtain ⟨dr, rfl⟩ := hd
  have hL : ∀ k, ((z + ∑ e ∈ E, xs e k * n e) + xp k * (dr : EReal)) * w k
      = ((((∑ e ∈ E, xsr e k * nr e) + xpr k * dr) * wr k : ℝ) : EReal) := by
    intro k
    rw [hz, zero_add, hxpr k, hwr k, Finset.sum_congr rfl (fun e _ => by rw [hxsr e k, hnr e, ← EReal.coe_mul]),
      ← coe_sum, ← EReal.coe_mul, ← EReal.coe_add, ← EReal.coe_mul]
  have hR1 : ∀ e, (∑ k, xs e k * w k) * n e = (((∑ k, xsr e k * wr k) * nr e : ℝ) : EReal) := by
    intro e
    rw [hnr e, Finset.sum_congr rfl (fun k _ => by rw [hxsr e k, hwr k, ← EReal.coe_mul]), ← coe_sum, ← EReal.coe_mul]
  have hR2 : (∑ k, xp k * w k) * (dr : EReal) = (((∑ k, xpr k * wr k) * dr : ℝ) : EReal) := by
    rw [Finset.sum_congr rfl (fun k _ => by rw [hxpr k, hwr k, ← EReal.coe_mul]), ← coe_sum, ← EReal.coe_mul]
  rw [Finset.sum_congr rfl (fun k _ => hL k), ← coe_sum, hz, zero_add,
    Finset.sum_congr rfl (fun e _ => hR1 e), ← coe_sum, hR2, ← EReal.coe_add, agg_then_dot_real]

end Cert.LibLinearAgg

end
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.Bridge.lean ====
/-
  The kernel network is the reference network, on real inputs.

  The node weights are inverse square roots of positive counts, hence real numbers; so are the edge weights (products of
  two of them) and the squared node weights. With real features and real first-layer weights, aggregating and then
  multiplying by W1 gives, entry by entry, what multiplying and then aggregating gives (LibLinearAgg): the two hidden
  layers are one array. From there on the two networks apply the same operations; the kernel's second matrix product,
  read entry by entry, is the reference's.
-/
import proofs.«107474_j21921513078817_2_alg».proof.Proof.Spec
import proofs.«107474_j21921513078817_2_alg».proof.Proof.LibLinearAgg
import proofs.«107474_j21921513078817_2_alg».proof.Proof.LibRow

noncomputable section

namespace Cert.Gcn

open Idealize.ShloMosaic Idealize.ShloMosaic.ValueIdx Cert.LibRows
open scoped BigOperators

/-- The host's inverse square root of an array, read at an index. -/
theorem hostRsqrt_apply {s : Shape} (x : FVec Ideal s .f32) (i : s.Idx) :
    Host.rsqrt (F := Ideal) x i = Ideal.rsqrt (x i) := rfl

/-- A float constant repeated over an array reads the constant's value at every index. -/
theorem bcast_const_apply {s : Shape} (hb : S0.BroadcastsInDim s (![] : Fin 0 → Fin s.rank)) (w : BitVec 32) (i : s.Idx) :
    broadcastInDim s ![] hb (constant (F := Ideal) S0 .f32 w) i = Ideal.ofBits .f32 w := rfl

variable (h : Side)

/-- Every node weight is a real number. -/
theorem dinvOf_real (dst : IVec ER 32) (i : NN.Idx) : ∃ r : ℝ, dinvOf h dst i = (r : EReal) := by
  obtain ⟨t, ht⟩ := Cert.LibDegreeWeight.scatterAdd_apply (d1 h)
    (broadcastInDim NN ![] h.bN (constant (F := Ideal) S0 .f32 0x00000000#32)) (broadcastInDim ERc ![0] h.col dst)
    (broadcastInDim ER ![] h.bR (constant (F := Ideal) S0 .f32 0x3F800000#32)) i
  unfold dinvOf
  rw [hostRsqrt_apply, addf_apply, ht]
  exact rsqrt_count_succ t _ _ _ (bcast_const_apply _ _ _) (bcast_const_apply _ _ _) (fun _ => bcast_const_apply _ _ _)

/-- Every edge weight is a real number when the node weights are. -/
theorem normOf_real (dinv : FVec Ideal NN .f32) (hd : ∀ i, ∃ r : ℝ, dinv i = (r : EReal)) (src dst : IVec ER 32)
    (e : ER.Idx) : ∃ r : ℝ, normOf h dinv src dst e = (r : EReal) := by
  have key : ∀ a b : NN.Idx, ∃ r : ℝ, dinv a * dinv b = (r : EReal) := fun a b => by
    obtain ⟨ra, ha⟩ := hd a
    obtain ⟨rb, hb⟩ := hd b
    exact ⟨ra * rb, by rw [ha, hb, EReal.coe_mul]⟩
  unfold normOf
  rw [mulf_apply]
  unfold Host.gather
  exact key _ _

/-- THE TWO HIDDEN LAYERS ARE ONE ARRAY, for real features, real weights and real node weights. -/
theorem hid_eq (src dst : IVec ER 32) (dinv : FVec Ideal NN .f32) (hd : ∀ i, ∃ r : ℝ, dinv i = (r : EReal))
    (x : FVec Ideal X128 .f32) (hx : ∀ i, ∃ r : ℝ, x i = (r : EReal))
    (w1 : FVec Ideal Wa .f32) (hw : ∀ i, ∃ r : ℝ, w1 i = (r : EReal)) (b1 : FVec Ideal B256 .f32) :
    kerHid h src dst dinv x w1 b1 = refHid h src dst dinv x w1 b1 := by
  unfold kerHid refHid
  refine congrArg (relu256 h) (funext fun j => ?_)
  obtain ⟨p, q, rfl⟩ : ∃ (p : Fin 50000) (q : Fin 256), j = ix2 p q := ⟨j 0, j 1, eq_ix2 j⟩
  have hN : 0 < 50000 := by norm_num
  have hL : ∀ k : Fin 128, agg128 h src dst dinv x (ix2 p k)
      = (Ideal.ofBits .f32 0x00000000#32
          + ∑ e ∈ received 800000 dst p.val,
              x (ix2 (clampRow 50000 hN (wrap h src (ix1 e))) k) * normOf h dinv src dst (ix1 e))
        + x (ix2 p k) * mulf dinv dinv (ix1 p) :=
    fun k => agg_apply 50000 800000 128 h.s128wf h.g128wf h.z128 h.col h.w128 h.colN h.n128 hN _ _ _ _ _ p k
  have hD : ∀ (r : Fin 50000), Host.dotGeneral (F := Ideal) (dotA h) none x w1 (ix2 r q)
      = ∑ k : Fin 128, x (ix2 r k) * w1 (ix2 k q) :=
    fun r => Cert.LibHostDense.hostDot_plain_apply (dotA h) rfl rfl rfl rfl rfl rfl none x w1 r q
  rw [denseBias_apply, addf_apply, Cert.LibRow.row_apply]
  unfold rows256 agg256
  rw [Cert.LibHostDense.bcastRows_apply, Cert.LibHostDense.bcastRow_apply,
    agg_apply 50000 800000 256 h.s256wf h.g256wf h.z256 h.col h.w256 h.colN h.n256 hN]
  refine congrArg (fun t : EReal => t + b1 (ix1 q)) ?_
  have eL : (∑ k : Fin 128, agg128 h src dst dinv x (ix2 p k) * w1 (ix2 k q))
      = ∑ k : Fin 128, ((Ideal.ofBits .f32 0x00000000#32
          + ∑ e ∈ received 800000 dst p.val,
              x (ix2 (clampRow 50000 hN (wrap h src (ix1 e))) k) * normOf h dinv src dst (ix1 e))
        + x (ix2 p k) * mulf dinv dinv (ix1 p)) * w1 (ix2 k q) :=
    Finset.sum_congr rfl fun k _ => by rw [hL k]
  have eR : (∑ e ∈ received 800000 dst p.val,
        Host.dotGeneral (F := Ideal) (dotA h) none x w1 (ix2 (clampRow 50000 hN (wrap h src (ix1 e))) q)
          * normOf h dinv src dst (ix1 e))
      = ∑ e ∈ received 800000 dst p.val,
        (∑ k : Fin 128, x (ix2 (clampRow 50000 hN (wrap h src (ix1 e))) k) * w1 (ix2 k q))
          * normOf h dinv src dst (ix1 e) :=
    Finset.sum_congr rfl fun e _ => by rw [hD]
  rw [eL, eR, hD p]
  exact Cert.LibLinearAgg.agg_then_dot (received 800000 dst p.val)
    (fun e k => x (ix2 (clampRow 50000 hN (wrap h src (ix1 e))) k)) (fun k => x (ix2 p k)) (fun k => w1 (ix2 k q))
    (fun e => normOf h dinv src dst (ix1 e)) (mulf dinv dinv (ix1 p)) (Ideal.ofBits .f32 0x00000000#32)
    Ideal.ofBits_zero_f32 (fun e k => hx _) (fun k => hx _) (fun k => hw _) (fun e => normOf_real h dinv hd src dst _)
    (by
      obtain ⟨r, hr⟩ := hd (ix1 p)
      exact ⟨r * r, by rw [mulf_apply, hr, EReal.coe_mul]⟩)

/-- THE TWO NETWORKS AGREE on one graph, for real features and real first-layer weights. -/
theorem net_eq (edge : IVec E2 32) (x : FVec Ideal X128 .f32) (hx : ∀ i, ∃ r : ℝ, x i = (r : EReal))
    (w1 : FVec Ideal Wa .f32) (hw : ∀ i, ∃ r : ℝ, w1 i = (r : EReal)) (b1 : FVec Ideal B256 .f32)
    (w2 : FVec Ideal Wb .f32) (b2 : FVec Ideal B128 .f32) :
    kerNet h edge x w1 b1 w2 b2 = refNet h edge x w1 b1 w2 b2 := by
  unfold kerNet refNet
  refine congrArg (out2 h (srcOf h edge) (dstOf h edge) (dinvOf h (dstOf h edge)) b2) ?_
  rw [hid_eq h _ _ _ (dinvOf_real h _) x hx w1 hw b1]
  funext j
  obtain ⟨p, q, rfl⟩ : ∃ (p : Fin 50000) (q : Fin 128), j = ix2 p q := ⟨j 0, j 1, eq_ix2 j⟩
  rw [dense_apply, Cert.LibHostDense.hostDot_plain_apply (dotB h) rfl rfl rfl rfl rfl rfl]

end Cert.Gcn

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  From the precondition, every entry of the float inputs is a real number. The precondition says that a conjunction of
  six tests "every entry of x has |x| below +infinity", one per float input, is 1; a conjunction of bits that is 1 has
  every conjunct 1, an all-reduction by "and" that is 1 met a 1 at every index, and an extended real whose absolute
  value is below +infinity is neither infinity, so it is a real number.
-/
import proofs.«107474_j21921513078817_2_alg».proof.Defs
import proofs.«107474_j21921513078817_2_alg».proof.Proof.Gen.Pre_finite_inputs
import proofs.«107474_j21921513078817_2_alg».proof.Proof.LibSums
import Idealize.ShloMosaic.Lib.ReduceAll
import Idealize.ShloMosaic.Lib.ValueIdx

noncomputable section

namespace Cert.Gcn.Finite

open Idealize.ShloMosaic Idealize.SL.Sem

/-- The scalar shape has one index: the empty tuple. -/
instance : Subsingleton Cert.Pre_finite_inputs.S_.Idx := ⟨fun a b => funext fun d => d.elim0⟩

/-- One test "all of |x| < +infinity" that came out 1 makes every entry of x a real number: the reduction by "and"
    over all axes is 1, so the comparison bit is 1 at every index, and there the entry's absolute value max(x, -x) is
    below the extended real the word 0x7F800000 denotes, which is +infinity. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1)
    (i : s.Idx) : ∃ r : ℝ, x i = (r : EReal) :=
  Cert.LibSums.real_of_finite_bit (x i) (Host.reduce_andi_all _ _ hr hu j e i)

/-- Under the precondition every entry of each of the six float inputs is a real number, on every device: the
    precondition's value at its one index is a five-fold "and" of the six tests; split it conjunct by conjunct and
    read each test with `real_of_all`. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal)) := by
  have h0 := congrFun (h c) ValueIdx.ix0
  dsimp only [Cert.Pre_finite_inputs.fn, Cert.Pre_finite_inputs.fn_part1] at h0
  obtain ⟨h1, h7⟩ := IntOp.andi_eq_one.1 h0
  obtain ⟨h2, h6⟩ := IntOp.andi_eq_one.1 h1
  obtain ⟨h3, h5⟩ := IntOp.andi_eq_one.1 h2
  obtain ⟨h4', h4⟩ := IntOp.andi_eq_one.1 h3
  obtain ⟨ha0, ha2⟩ := IntOp.andi_eq_one.1 h4'
  exact ⟨fun i => real_of_all _ _ _ _ _ ha0 i, fun i => real_of_all _ _ _ _ _ ha2 i,
    fun i => real_of_all _ _ _ _ _ h4 i, fun i => real_of_all _ _ _ _ _ h5 i,
    fun i => real_of_all _ _ _ _ _ h6 i, fun i => real_of_all _ _ _ _ _ h7 i⟩

end Cert.Gcn.Finite

end
-- ==== Proof.lean ====
/-
  A two-layer graph convolutional encoder on two graphs (50000 nodes, 800000 edges each, shared weights): the kernel
  program against its reference, equal as extended reals under finite float inputs.

  Per graph the reference computes  relu (agg (relu (agg (x · W1) + b1) · W2) + b2),  where agg is the symmetric-normalized
  neighbourhood sum with self loops (Spec.lean, Gcn.lean). The kernel program computes  relu (agg (relu ((agg x) · W1 + b1) · W2) + b2):
  it aggregates the 128 input features BEFORE its first matrix product, and runs its two matrix products as row-blocked
  kernels of five blocks of 10000 rows. The aggregation is linear row by row with real coefficients (inverse square roots
  of positive counts), so on real features and weights it commutes with the product by W1 (Bridge.lean, LibLinearAgg.lean:
  distributivity and an exchange of finite sums, which is where finiteness of the inputs is used); everything after the
  first hidden layer is the same operations on both sides.
  The kernel program's results are read off its run region by region and stretch by stretch (KernelRun.lean,
  Region0–3.lean, StretchA/B.lean, Pass.lean, KernelValue.lean); the reference's results are its generated run's terms,
  which are the reference network of Spec.lean verbatim (RefValue.lean). The idealization rewrote nothing, so `preserves`
  is trivial.
-/
import proofs.«107474_j21921513078817_2_alg».proof.Defs
import proofs.«107474_j21921513078817_2_alg».proof.Proof.Gen.Kernel
import proofs.«107474_j21921513078817_2_alg».proof.Proof.Gen.Kernel.Skeleton
import proofs.«107474_j21921513078817_2_alg».proof.Proof.Gen.Kernel.Launch
import proofs.«107474_j21921513078817_2_alg».proof.Proof.Gen.Kernel.Points
import proofs.«107474_j21921513078817_2_alg».proof.Proof.Gen.Kernel.Frame
import proofs.«107474_j21921513078817_2_alg».proof.Proof.Gen.KernelIdeal
import proofs.«107474_j21921513078817_2_alg».proof.Proof.Gen.KernelIdeal.Skeleton
import proofs.«107474_j21921513078817_2_alg».proof.Proof.Gen.KernelIdeal.Launch
import proofs.«107474_j21921513078817_2_alg».proof.Proof.Gen.KernelIdeal.Points
import proofs.«107474_j21921513078817_2_alg».proof.Proof.Gen.KernelIdeal.Frame
import proofs.«107474_j21921513078817_2_alg».proof.Proof.Gen.ReferenceIdeal
import proofs.«107474_j21921513078817_2_alg».proof.Proof.Gen.Pre_finite_inputs
import proofs.«107474_j21921513078817_2_alg».proof.Proof.Gen.ReferenceIdeal.Run
import proofs.«107474_j21921513078817_2_alg».proof.Proof.Gen.ReferenceIdeal.Read
import proofs.«107474_j21921513078817_2_alg».proof.Proof.KernelRun
import proofs.«107474_j21921513078817_2_alg».proof.Proof.KernelValue
import proofs.«107474_j21921513078817_2_alg».proof.Proof.RefValue
import proofs.«107474_j21921513078817_2_alg».proof.Proof.Bridge
import proofs.«107474_j21921513078817_2_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with the kernel network's value on each graph: the kernel program by its run read back, the
    reference because its network is the kernel network on real features and first-layer weights. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Gcn.kerNet Cert.Gcn.side
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.Gcn.kerNet Cert.Gcn.side
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Gcn.KernelValue.out0 m ρ c), (h c).2.1.trans (Cert.Gcn.KernelValue.out1 m ρ c), (h c).2.2⟩)
      (Cert.Gcn.KRun.run (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨a0, a1, a2, a3, a4, a5, a6, a7⟩ := hagree c
      obtain ⟨r0, r2, r4, -⟩ := Cert.Gcn.Finite.real_of_pre m hpre c
      rw [Cert.Gcn.RefValue.res0 m' c, a0, a1, a4, a5, a6, a7]
      exact (Cert.Gcn.net_eq Cert.Gcn.side _ _ r0 _ r4 _ _ _).symm
    · obtain ⟨a0, a1, a2, a3, a4, a5, a6, a7⟩ := hagree c
      obtain ⟨r0, r2, r4, -⟩ := Cert.Gcn.Finite.real_of_pre m hpre c
      rw [Cert.Gcn.RefValue.res1 m' c, a2, a3, a4, a5, a6, a7]
      exact (Cert.Gcn.net_eq Cert.Gcn.side _ _ r2 _ r4 _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
